-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000 : S_.BroadcastsInDim S50000 (![] : Fin 0 → Fin S50000.rank)
  reducesTo_S50000_S_d0 : S50000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part4 {F : FTy → Type} [FloatOps F] (main_arg15 : FVec F S_ .f32) (main_v63 : IVec S_ 1) (main_v67 : IVec S_ 1) : IVec S_ 1 :=
  let main_v68 : IVec S_ 1 := andi main_v63 main_v67
  let main_v69 : FVec F S_ .f32 := Host.absf main_arg15
  let main_cst_26 : FVec F S_ .f32 := constant S_ .f32 0x7F800000#32
  let main_v70 : IVec S_ 1 := cmpf .olt main_v69 main_cst_26
  let main_c_27 : IVec S_ 1 := constantI S_ 1 1#1
  let main_v71 : IVec S_ 1 := (fun x v => Host.reduce IntOp.andi x v reducesTo_S_S_d h_S_) main_v70 main_c_27
  let main_v72 : IVec S_ 1 := andi main_v68 main_v71
  main_v72

def fn_part3 {F : FTy → Type} [FloatOps F] (main_arg12 : FVec F S64 .f32) (main_arg13 : FVec F S64x1 .f32) (main_arg14 : FVec F S1 .f32) (main_arg15 : FVec F S_ .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg13
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x128 .f32) (main_arg11 : FVec F S128x64 .f32) (main_arg12 : FVec F S64 .f32) (main_arg13 : FVec F S64x1 .f32) (main_arg14 : FVec F S1 .f32) (main_arg15 : FVec F S_ .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_arg15 main_v48 main_v49 main_v50

def fn_part1 {F : FTy → Type} [FloatOps F] (main_arg5 : FVec F S256x128 .f32) (main_arg6 : FVec F S128 .f32) (main_arg7 : FVec F S256x128 .f32) (main_arg8 : FVec F S128x128 .f32) (main_arg9 : FVec F S128 .f32) (main_arg10 : FVec F S128x128 .f32) (main_arg11 : FVec F S128x64 .f32) (main_arg12 : FVec F S64 .f32) (main_arg13 : FVec F S64x1 .f32) (main_arg14 : FVec F S1 .f32) (main_arg15 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x256 .f32) (main_arg1 : IVec S2x800000 32) (main_arg2 : FVec F S50000 .f32) (main_arg3 : FVec F S256x128 .f32) (main_arg4 : FVec F S128 .f32) (main_arg5 : FVec F S256x128 .f32) (main_arg6 : FVec F S128 .f32) (main_arg7 : FVec F S256x128 .f32) (main_arg8 : FVec F S128x128 .f32) (main_arg9 : FVec F S128 .f32) (main_arg10 : FVec F S128x128 .f32) (main_arg11 : FVec F S128x64 .f32) (main_arg12 : FVec F S64 .f32) (main_arg13 : FVec F S64x1 .f32) (main_arg14 : FVec F S1 .f32) (main_arg15 : FVec F S_ .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x256 : Shape := ⟨2, ![800000, 256]⟩
abbrev S50000x1 : Shape := ⟨2, ![50000, 1]⟩
abbrev S1x128 : Shape := ⟨2, ![1, 128]⟩
abbrev S50000x128 : Shape := ⟨2, ![50000, 128]⟩
abbrev S2000x256 : Shape := ⟨2, ![2000, 256]⟩
abbrev S2000x128 : Shape := ⟨2, ![2000, 128]⟩
abbrev S800000x128 : Shape := ⟨2, ![800000, 128]⟩
abbrev S1x64 : Shape := ⟨2, ![1, 64]⟩
abbrev S1x1 : Shape := ⟨2, ![1, 1]⟩
abbrev S2000x1 : Shape := ⟨2, ![2000, 1]⟩
abbrev S2000x64 : Shape := ⟨2, ![2000, 64]⟩

abbrev nBuf : Space → Nat
  | .hbm => 85
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S_, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S50000x1, .f32⟩
  | .hbm, ⟨46, _⟩ => ⟨S50000x256, .f32⟩
  | .hbm, ⟨47, _⟩ => ⟨S50000x256, .f32⟩
  | .hbm, ⟨48, _⟩ => ⟨S1x128, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S1x64, .f32⟩
  | .hbm, ⟨69, _⟩ => ⟨S1x1, .f32⟩
  | .hbm, ⟨70, _⟩ => ⟨S50000x1, .f32⟩
  | .hbm, ⟨71, _⟩ => ⟨S50000, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x128, .f32⟩
  | .local _ .vmem, ⟨5, _⟩ => ⟨S1x128, .f32⟩
  | .local _ .vmem, ⟨6, _⟩ => ⟨S256x128, .f32⟩
  | .local _ .vmem, ⟨7, _⟩ => ⟨S1x128, .f32⟩
  | .local _ .vmem, ⟨8, _⟩ => ⟨S256x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S128x64, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S2000x1, .f32⟩
  | .local _ .vmem, ⟨23, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S64_S1x64 : S64.ShapeCasts S1x64
  shapeCasts_S1_S1x1 : S1.ShapeCasts S1x1
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .f32 = 32 ∨ (Rect.block (s := S64x1) S64x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S50000x1.size a
  hwx1_9 : ∀ i : grid1.Coords, EltTy.bits .f32 = 32 ∨ (Rect.block (s := S50000x1) S2000x1.size (cc1_transform_9 i) (hinb1_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S800000x1 : Shape := ⟨2, ![800000, 1]⟩
abbrev S800000x256 : Shape := ⟨2, ![800000, 256]⟩
abbrev S50000x1 : Shape := ⟨2, ![50000, 1]⟩
abbrev S800000x128 : Shape := ⟨2, ![800000, 128]⟩
abbrev S50000x64 : Shape := ⟨2, ![50000, 64]⟩
abbrev S1x64 : Shape := ⟨2, ![1, 64]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S_, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S_, .f32⟩
  | .hbm, ⟨38, _⟩ => ⟨S800000, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x256, .f32⟩
  | .hbm, ⟨48, _⟩ => ⟨S50000x256, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S_, .f32⟩
  | .hbm, ⟨73, _⟩ => ⟨S800000, .f32⟩
  | .hbm, ⟨74, _⟩ => ⟨S_, .f32⟩
  | .hbm, ⟨75, _⟩ => ⟨S50000, .f32⟩
  | .hbm, ⟨76, _⟩ => ⟨S800000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x64, .f32⟩
  | .hbm, ⟨95, _⟩ => ⟨S1x64, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000x64, .f32⟩
  | .hbm, ⟨100, _⟩ => ⟨S50000x64, .f32⟩
  | .hbm, ⟨101, _⟩ => ⟨S50000x1, .f32⟩
  | .hbm, ⟨102, _⟩ => ⟨S1x1, .f32⟩
  | .hbm, ⟨103, _⟩ => ⟨S50000x1, .f32⟩
  | .hbm, ⟨104, _⟩ => ⟨S50000x1, .f32⟩
  | .hbm, ⟨105, _⟩ => ⟨S50000, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S50000, .f32⟩
  | .hbm, ⟨113, _⟩ => ⟨S50000, .f32⟩
  | .hbm, ⟨114, _⟩ => ⟨S_, .f32⟩
  | .hbm, ⟨115, _⟩ => ⟨S_, .f32⟩
  | .hbm, ⟨116, _⟩ => ⟨S50000, .f32⟩
  | .hbm, ⟨117, _⟩ => ⟨S50000, .f32⟩
  | .hbm, ⟨118, _⟩ => ⟨S50000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call0_cst : Ref sig .tc := ⟨.hbm, 55, rfl⟩
abbrev main_call0_v0 : Ref sig .tc := ⟨.hbm, 56, rfl⟩
abbrev main_v33 : Ref sig .tc := ⟨.hbm, 57, rfl⟩
abbrev main_v34 : Ref sig .tc := ⟨.hbm, 58, rfl⟩
abbrev main_c_4 : Ref sig .tc := ⟨.hbm, 59, rfl⟩
abbrev main_v35 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call1_cst : Ref sig .tc := ⟨.hbm, 90, rfl⟩
abbrev main_call1_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call2_cst : Ref sig .tc := ⟨.hbm, 98, rfl⟩
abbrev main_call2_v0 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_10 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_12 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x256_S256x128_S50000x128_1_0_0_1_n_n_wf : DotDims.WF S50000x256 S256x128 S50000x128 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel's whole run with its result named.

  The program is two grids of 25 points among three stretches of host operations. Its run ends with every unscoped
  buffer of a core at the contents obtained by folding through the program: the host operations before the first
  grid applied to the launch memory, the first grid's output array at what its 25 write-backs leave, the host
  operations between the grids, the second grid's output array, and the last host operations. Read at the result
  buffer this is the program's value; read at an argument buffer it is the launch contents.
-/
import proofs.«104510_j48885317763286_1_alg».proof.Defs
import proofs.«104510_j48885317763286_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_main : θ_run defs (onTc (τ := τ) (main (F := F))) ⟨m, fun _ => 0, ρ⟩ (fun r => ∀ c : Dev nD,
      r.2.mem ((c.tc : Thread nD τ).loc main_v55) = W5 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v55 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)

end Cert.KernelIdeal.Whole

end
-- ==== Proof.Spec.lean ====
/-
  The network both programs compute, as functions of whole arrays on the extended reals.

  A graph of 50000 nodes and 800000 directed edges, the edges given as a row of source words and a row of
  destination words. Node features `x : [50000, 256]` pass through two mean-aggregation layers and a scoring head:

  * the aggregate of a table `h` is, per node, the sum of `h` over the sources of the edges directed into the node
    (`edgeSum`), divided by the node's in-degree clamped below at one (`degree`);
  * layer 0 is `relu (agg · Wl + bl + x · Wr) + (x · Wp + bp)`, layer 1 is `relu (agg · Wl + bl + h · Wr) + h`;
  * the head is `relu (h · W1 + b1) · W2 + b2`, one score per node;
  * the result blends the given scores with the head's: `σ a · s + (1 - σ a) · score`, `σ a = 1 / (1 + exp (-a))`.

  The mean is written in two ways: as a quotient by the clamped degree (`meanQuot`) and as a product with its
  reciprocal (`meanProd`). Everything else is one spelling, shared by the two.
-/
import proofs.«104510_j48885317763286_1_alg».proof.ReferenceIdeal
import Idealize.ShloMosaic.PureOps.Ideal

noncomputable section

namespace Cert.Sage

open Idealize.ShloMosaic Cert.ReferenceIdeal Cert.ReferenceIdeal.Facts₀

variable [Cert.ReferenceIdeal.Facts₀]

/-- A float array of shape `S` on the extended reals. -/
abbrev Arr (S : Shape) := FVec Ideal S .f32
/-- An array of 32-bit words of shape `S`. -/
abbrev Words (S : Shape) := IVec S 32

/-! ## The edge list -/

/-- The row of source words of the edge array. -/
def srcWords (e : Words S2x800000) : Words S800000 :=
  shapeCast _ (extractStridedSlice S1x800000 ![0, 0] e slices_S2x800000_S1x800000_0_0) shapeCasts_S1x800000_S800000

/-- The row of destination words of the edge array. -/
def dstWords (e : Words S2x800000) : Words S800000 :=
  shapeCast _ (extractStridedSlice S1x800000 ![1, 0] e slices_S2x800000_S1x800000_1_0) shapeCasts_S1x800000_S800000

/-- Source words as row numbers for a gather: a negative word is moved up by the table's height, and the words are
    set as a column. -/
def gatherRows (s : Words S800000) : Words S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Destination words set as a column. -/
def scatterRows (d : Words S800000) : Words S800000x1 :=
  broadcastInDim S800000x1 ![0] bcast_S800000_S800000x1_0 d

/-- The in-degree of every node, clamped below at one: ones added onto a zero vector at the destinations, then the
    maximum with one. -/
def degree (d : Words S800000) : Arr S50000 :=
  maximumf
    (Host.scatterAdd scatter_S50000_S800000x1_S800000_n_0_0_1
      (broadcastInDim S50000 ![] bcast_S_S50000 (constant (F := Ideal) S_ .f32 0x00000000#32)) (scatterRows d)
      (broadcastInDim S800000 ![] bcast_S_S800000 (constant (F := Ideal) S_ .f32 0x3F800000#32)))
    (broadcastInDim S50000 ![] bcast_S_S50000 (constant (F := Ideal) S_ .f32 0x3F800000#32))

/-! ## Sums over incoming edges, and the two spellings of the mean -/

/-- Per node, the sum of the rows of a 256-column table over the sources of the incoming edges. -/
def edgeSum256 (x : Arr S50000x256) (s d : Words S800000) : Arr S50000x256 :=
  Host.scatterAdd scatter_S50000x256_S800000x1_S800000x256_1_0_0_1
    (broadcastInDim S50000x256 ![] bcast_S_S50000x256 (constant (F := Ideal) S_ .f32 0x00000000#32)) (scatterRows d)
    (Host.gather gather_S50000x256_S800000x1_S800000x256_1_0_n_n_0_1_1256 x (gatherRows s))

/-- The same for a 128-column table. -/
def edgeSum128 (h : Arr S50000x128) (s d : Words S800000) : Arr S50000x128 :=
  Host.scatterAdd scatter_S50000x128_S800000x1_S800000x128_1_0_0_1
    (broadcastInDim S50000x128 ![] bcast_S_S50000x128 (constant (F := Ideal) S_ .f32 0x00000000#32)) (scatterRows d)
    (Host.gather gather_S50000x128_S800000x1_S800000x128_1_0_n_n_0_1_1128 h (gatherRows s))

/-- The mean as a quotient: every row divided by its node's clamped degree. -/
def meanQuot256 (t : Arr S50000x256) (g : Arr S50000) : Arr S50000x256 :=
  Host.divf t (broadcastInDim S50000x256 ![0, 1] bcast_S50000x1_S50000x256_0_1 (broadcastInDim S50000x1 ![0] bcast_S50000_S50000x1_0 g))

def meanQuot128 (t : Arr S50000x128) (g : Arr S50000) : Arr S50000x128 :=
  Host.divf t (broadcastInDim S50000x128 ![0, 1] bcast_S50000x1_S50000x128_0_1 (broadcastInDim S50000x1 ![0] bcast_S50000_S50000x1_0 g))

/-- The reciprocal of the clamped degree. -/
def recip (g : Arr S50000) : Arr S50000 :=
  Host.divf (broadcastInDim S50000 ![] bcast_S_S50000 (constant (F := Ideal) S_ .f32 0x3F800000#32)) g

/-- The mean as a product: every row times the reciprocal of its node's clamped degree. -/
def meanProd256 (t : Arr S50000x256) (g : Arr S50000) : Arr S50000x256 :=
  mulf t (broadcastInDim S50000x256 ![0, 1] bcast_S50000x1_S50000x256_0_1 (broadcastInDim S50000x1 ![0] bcast_S50000_S50000x1_0 (recip g)))

def meanProd128 (t : Arr S50000x128) (g : Arr S50000) : Arr S50000x128 :=
  mulf t (broadcastInDim S50000x128 ![0, 1] bcast_S50000x1_S50000x128_0_1 (broadcastInDim S50000x1 ![0] bcast_S50000_S50000x1_0 (recip g)))

/-! ## The layers, over bias rows `[1, C]` -/

/-- A bias vector set as a row. -/
def row128 (b : Arr S128) : Arr S1x128 := broadcastInDim S1x128 ![1] bcast_S128_S1x128_1 b
def row64 (b : Arr S64) : Arr S1x64 := broadcastInDim S1x64 ![1] bcast_S64_S1x64_1 b
def row1 (b : Arr S1) : Arr S1x1 := broadcastInDim S1x1 ![1] bcast_S1_S1x1_1 b

/-- Layer 0: `relu (agg · Wl + bl + x · Wr) + (x · Wp + bp)`. -/
def layer0 (x agg : Arr S50000x256) (Wp : Arr S256x128) (bp : Arr S1x128) (Wl : Arr S256x128) (bl : Arr S1x128)
    (Wr : Arr S256x128) : Arr S50000x128 :=
  addf
    (maximumf
      (addf
        (addf (Host.dotGeneral dot_S50000x256_S256x128_S50000x128_1_0_0_1_n_n none agg Wl)
          (broadcastInDim S50000x128 ![0, 1] bcast_S1x128_S50000x128_0_1 bl))
        (Host.dotGeneral dot_S50000x256_S256x128_S50000x128_1_0_0_1_n_n none x Wr))
      (broadcastInDim S50000x128 ![] bcast_S_S50000x128 (constant (F := Ideal) S_ .f32 0x00000000#32)))
    (addf (Host.dotGeneral dot_S50000x256_S256x128_S50000x128_1_0_0_1_n_n none x Wp)
      (broadcastInDim S50000x128 ![0, 1] bcast_S1x128_S50000x128_0_1 bp))

/-- Layer 1: `relu (agg · Wl + bl + h · Wr) + h`. -/
def layer1 (h agg : Arr S50000x128) (Wl : Arr S128x128) (bl : Arr S1x128) (Wr : Arr S128x128) : Arr S50000x128 :=
  addf
    (maximumf
      (addf
        (addf (Host.dotGeneral dot_S50000x128_S128x128_S50000x128_1_0_0_1_n_n none agg Wl)
          (broadcastInDim S50000x128 ![0, 1] bcast_S1x128_S50000x128_0_1 bl))
        (Host.dotGeneral dot_S50000x128_S128x128_S50000x128_1_0_0_1_n_n none h Wr))
      (broadcastInDim S50000x128 ![] bcast_S_S50000x128 (constant (F := Ideal) S_ .f32 0x00000000#32)))
    h

/-- The head's hidden layer: `relu (h · W1 + b1)`. -/
def hidden (h : Arr S50000x128) (W1 : Arr S128x64) (b1 : Arr S1x64) : Arr S50000x64 :=
  maximumf
    (addf (Host.dotGeneral dot_S50000x128_S128x64_S50000x64_1_0_0_1_n_n none h W1)
      (broadcastInDim S50000x64 ![0, 1] bcast_S1x64_S50000x64_0_1 b1))
    (broadcastInDim S50000x64 ![] bcast_S_S50000x64 (constant (F := Ideal) S_ .f32 0x00000000#32))

/-- The scoring head: `relu (h · W1 + b1) · W2 + b2`, a column of one score per node. -/
def head (h : Arr S50000x128) (W1 : Arr S128x64) (b1 : Arr S1x64) (W2 : Arr S64x1) (b2 : Arr S1x1) : Arr S50000x1 :=
  addf (Host.dotGeneral dot_S50000x64_S64x1_S50000x1_1_0_0_1_n_n none (hidden h W1 b1) W2)
    (broadcastInDim S50000x1 ![0, 1] bcast_S1x1_S50000x1_0_1 b2)

/-- Layer 1 and the head together: what the second grid computes from the first layer's output and its aggregate. -/
def scores (h agg : Arr S50000x128) (Wl : Arr S128x128) (bl : Arr S1x128) (Wr : Arr S128x128) (W1 : Arr S128x64)
    (b1 : Arr S1x64) (W2 : Arr S64x1) (b2 : Arr S1x1) : Arr S50000x1 :=
  head (layer1 h agg Wl bl Wr) W1 b1 W2 b2

/-! ## The blend -/

/-- The logistic function of the mixing parameter. -/
def gate (a : Arr S_) : Arr S_ :=
  Host.divf (constant (F := Ideal) S_ .f32 0x3F800000#32) (addf (constant (F := Ideal) S_ .f32 0x3F800000#32) (Host.exp (Host.negf a)))

/-- `σ a · s + (1 - σ a) · score`, the column of scores read as a vector. -/
def blend (a : Arr S_) (s : Arr S50000) (score : Arr S50000x1) : Arr S50000 :=
  addf (mulf (broadcastInDim S50000 ![] bcast_S_S50000 (gate a)) s)
    (mulf (broadcastInDim S50000 ![] bcast_S_S50000 (subf (constant (F := Ideal) S_ .f32 0x3F800000#32) (gate a)))
      (shapeCast _ score shapeCasts_S50000x1_S50000))

/-! ## The whole network, in either spelling of the mean -/

/-- The network with the means as quotients. -/
def networkQuot (x : Arr S50000x256) (e : Words S2x800000) (s : Arr S50000) (Wp : Arr S256x128) (bp : Arr S128)
    (Wl0 : Arr S256x128) (bl0 : Arr S128) (Wr0 : Arr S256x128) (Wl1 : Arr S128x128) (bl1 : Arr S128) (Wr1 : Arr S128x128)
    (W1 : Arr S128x64) (b1 : Arr S64) (W2 : Arr S64x1) (b2 : Arr S1) (a : Arr S_) : Arr S50000 :=
  let h := layer0 x (meanQuot256 (edgeSum256 x (srcWords e) (dstWords e)) (degree (dstWords e))) Wp (row128 bp) Wl0 (row128 bl0) Wr0
  blend a s (scores h (meanQuot128 (edgeSum128 h (srcWords e) (dstWords e)) (degree (dstWords e))) Wl1 (row128 bl1) Wr1 W1 (row64 b1) W2 (row1 b2))

/-- The network with the means as products with the reciprocal degree. -/
def networkProd (x : Arr S50000x256) (e : Words S2x800000) (s : Arr S50000) (Wp : Arr S256x128) (bp : Arr S128)
    (Wl0 : Arr S256x128) (bl0 : Arr S128) (Wr0 : Arr S256x128) (Wl1 : Arr S128x128) (bl1 : Arr S128) (Wr1 : Arr S128x128)
    (W1 : Arr S128x64) (b1 : Arr S64) (W2 : Arr S64x1) (b2 : Arr S1) (a : Arr S_) : Arr S50000 :=
  let h := layer0 x (meanProd256 (edgeSum256 x (srcWords e) (dstWords e)) (degree (dstWords e))) Wp (row128 bp) Wl0 (row128 bl0) Wr0
  blend a s (scores h (meanProd128 (edgeSum128 h (srcWords e) (dstWords e)) (degree (dstWords e))) Wl1 (row128 bl1) Wr1 W1 (row64 b1) W2 (row1 b2))

end Cert.Sage

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibRowBlockProduct.lean ====
/-
  A matrix product taken one block of rows at a time.

  On the extended reals the entry `(r, q)` of `A · W` is `∑ k, A (r, k) * W (k, q)`: it reads row `r` of `A` and nothing
  else of `A`. So if `a` is a block of rows of `A` — row `p` of `a` is row `r` of `A` — and `w` agrees with `W` on column
  `q`, then entry `(p, q)` of the product `a · w` accumulated from zero is entry `(r, q)` of `A · W`, for any extents and
  any operand formats (a change of format is the identity on the extended reals).
-/
import proofs.«104510_j48885317763286_1_alg».proof.Proof.LibPlainDot

noncomputable section

open scoped BigOperators

namespace Cert.Lib.RowBlockProduct

open Idealize.ShloMosaic Idealize.ShloMosaic.ValueIdx Cert.Lib.PlainDot

variable {M B K N : Nat}

/-- Entry `(p, q)` of a block's product into the zero accumulator is entry `(r, q)` of the whole product, when the
    block's row `p` is the matrix's row `r` and the right operands agree on column `q`. -/
theorem matmul_block_eq_dotGeneral {φ₁ φ₂ ψ₁ ψ₂ : FTy} (prec prec' : Option ContractPrecision) (sched : HostSchedule)
    (a : FVec Ideal ⟨2, ![B, K]⟩ φ₁) (w : FVec Ideal ⟨2, ![K, N]⟩ φ₂)
    (A : FVec Ideal ⟨2, ![M, K]⟩ ψ₁) (W : FVec Ideal ⟨2, ![K, N]⟩ ψ₂)
    (p : Fin B) (r : Fin M) (q : Fin N)
    (ha : ∀ k : Fin K, a (ix2 p k) = A (ix2 r k)) (hw : ∀ k : Fin K, w (ix2 k q) = W (ix2 k q)) :
    FloatOps.matmul (DotDims.plain B K N) prec a w (constant ⟨2, ![B, N]⟩ .f32 0x00000000#32) (ix2 p q)
      = FloatOps.dotGeneral (DotDims.plain M K N) prec' sched A W (ix2 r q) := by
  rw [matmul_plain_zero_apply, dotGeneral_plain_apply]
  exact Finset.sum_congr rfl fun k _ => by rw [ha k, hw k]

end Cert.Lib.RowBlockProduct

end
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.LibRowBlockLayer.lean ====
/-
  The pieces of a dense layer computed one block of rows at a time, against the layer computed whole, on the extended
  reals and for any extents.

  * A matrix product of a block of rows whose operands are first narrowed to a shorter float format, accumulated from
    zero, read at `(p, q)`, is the whole product read at `(r, q)` when the block's row `p` is the table's row `r`
    (narrowing is the identity on the extended reals, and a row of a product reads one row of its left operand).
  * A bias row `[1, N]` spread over the `B` rows of a block (a vector broadcast) reads, at `(p, q)`, what the same row
    spread over the `M` rows of the whole table (a `broadcast_in_dim`) reads at `(r, q)`: the row at `q`.
  * The scalar zero spread over a block is the zero constant spread over the whole table.
-/
import proofs.«104510_j48885317763286_1_alg».proof.Proof.LibRowBlockProduct
import proofs.«104510_j48885317763286_1_alg».proof.Proof.LibBroadcastInDim
import Idealize.ShloMosaic.Lib.ValueLayout
import Idealize.ShloMosaic.Lib.IdealHost
import Idealize.ShloMosaic.Lib.Pipeline.Value

noncomputable section

namespace Cert.Lib.RowBlockLayer

open Idealize.ShloMosaic Idealize.ShloMosaic.ValueIdx

/-- A product of a block of rows, its operands narrowed, accumulated from zero, read at `(p, q)`, is the whole
    product read at `(r, q)` when the block's row `p` is the table's row `r`. -/
theorem narrowed_product_block {M B K N : ℕ}
    (kd : DotDims ⟨2, ![B, K]⟩ ⟨2, ![K, N]⟩ ⟨2, ![B, N]⟩) (rd : DotDims ⟨2, ![M, K]⟩ ⟨2, ![K, N]⟩ ⟨2, ![M, N]⟩)
    (hk : kd = DotDims.plain B K N) (hr : rd = DotDims.plain M K N)
    (hb : FTy.bf16.bits < FTy.f32.bits)
    (a : FVec Ideal ⟨2, ![B, K]⟩ .f32) (w : FVec Ideal ⟨2, ![K, N]⟩ .f32) (A : FVec Ideal ⟨2, ![M, K]⟩ .f32)
    (p : Fin B) (r : Fin M) (q : Fin N) (ha : ∀ k : Fin K, a (ix2 p k) = A (ix2 r k)) :
    matmul kd none (truncf .bf16 a hb) (truncf .bf16 w hb) (constant ⟨2, ![B, N]⟩ .f32 0x00000000#32) (ix2 p q)
      = Host.dotGeneral rd none A w (ix2 r q) := by
  subst hk hr
  exact Cert.Lib.RowBlockProduct.matmul_block_eq_dotGeneral none none _ _ _ A w p r q
    (fun k => (truncf_apply a hb _).trans (ha k)) (fun k => truncf_apply w hb _)

/-- A bias row spread over the rows of a block reads, at `(p, q)`, what the row spread over the rows of the whole
    table reads at `(r, q)`. -/
theorem bias_block {B M N : ℕ} (b : FVec Ideal ⟨2, ![1, N]⟩ .f32)
    (hc : (⟨2, ![1, N]⟩ : Shape).ShapeCasts ⟨2, ![1, N]⟩) (hk : (⟨2, ![1, N]⟩ : Shape).Broadcasts ⟨2, ![B, N]⟩)
    (hr : (⟨2, ![1, N]⟩ : Shape).BroadcastsInDim ⟨2, ![M, N]⟩ (![0, 1] : Fin 2 → Fin 2))
    (p : Fin B) (r : Fin M) (q : Fin N) :
    broadcastTo ⟨2, ![B, N]⟩ (shapeCast ⟨2, ![1, N]⟩ b hc) hk (ix2 p q)
      = broadcastInDim ⟨2, ![M, N]⟩ (![0, 1] : Fin 2 → Fin 2) hr b (ix2 r q) := by
  rw [broadcastTo_1b_ab_apply, shapeCast_self, Cert.Lib.BroadcastInDim.row_rows_apply]

/-- The zero a block's maximum is taken against is the zero the whole table's is. -/
theorem zero_block {B M N : ℕ} (hr : (⟨0, ![]⟩ : Shape).BroadcastsInDim ⟨2, ![M, N]⟩ ![]) (p : Fin B) (r : Fin M) (q : Fin N) :
    (broadcast ⟨2, ![B, N]⟩ (Scalar.ofBits (F := Ideal) .f32 0x00000000#32) : FVec Ideal ⟨2, ![B, N]⟩ .f32) (ix2 p q)
      = (broadcastInDim ⟨2, ![M, N]⟩ ![] hr (constant (F := Ideal) ⟨0, ![]⟩ .f32 0x00000000#32) : FVec Ideal ⟨2, ![M, N]⟩ .f32) (ix2 r q) := by
  rw [broadcastInDim_scalar_apply]
  rfl

end Cert.Lib.RowBlockLayer

end
-- ==== Proof.Block0.lean ====
/-
  One block of rows of layer 0.

  The first grid's body computes, from 2000 rows of the feature table and of its aggregate and from the whole weight
  matrices and bias rows, `relu (agg · Wl + bl + x · Wr) + (x · Wp + bp)` on those rows; its operands narrowed to a
  shorter float format first, which on the extended reals changes nothing. A row of a matrix product reads one row of
  the left operand, so row `p` of the block's result is row `r` of the whole layer's, whenever rows `p` of the two
  blocks are rows `r` of the two tables.
-/
import proofs.«104510_j48885317763286_1_alg».proof.Proof.Gen.KernelIdeal.Skeleton
import proofs.«104510_j48885317763286_1_alg».proof.Proof.Spec
import proofs.«104510_j48885317763286_1_alg».proof.Proof.LibRowBlockLayer

noncomputable section

namespace Cert.Sage

open Idealize.ShloMosaic Idealize.ShloMosaic.ValueIdx Cert.Lib.RowBlockLayer

variable [Cert.KernelIdeal.Facts₀] [Cert.ReferenceIdeal.Facts₀]

theorem kernel_dot0 : Cert.KernelIdeal.dot_S2000x256_S256x128_S2000x128_1_0_0_1_n_n = DotDims.plain 2000 256 128 := rfl
theorem reference_dot0 : Cert.ReferenceIdeal.dot_S50000x256_S256x128_S50000x128_1_0_0_1_n_n = DotDims.plain 50000 256 128 := rfl

open Cert.ReferenceIdeal Cert.ReferenceIdeal.Facts₀ in
/-- ROW `p` OF THE BLOCK IS ROW `r` OF LAYER 0. -/
theorem layer0_block (x0 x1 : FVec Ideal Cert.KernelIdeal.S2000x256 .f32) (Wp : FVec Ideal S256x128 .f32) (bp : FVec Ideal S1x128 .f32)
    (Wl : FVec Ideal S256x128 .f32) (bl : FVec Ideal S1x128 .f32) (Wr : FVec Ideal S256x128 .f32)
    (X A : Arr S50000x256) (p : Fin 2000) (r : Fin 50000) (q : Fin 128)
    (hx : ∀ k : Fin 256, x0 (ix2 p k) = X (ix2 r k)) (ha : ∀ k : Fin 256, x1 (ix2 p k) = A (ix2 r k)) :
    Cert.KernelIdeal.Gen.k0_pay1 (F := Ideal) x0 x1 Wp Wl Wr bp bl (ix2 p q) = layer0 X A Wp bp Wl bl Wr (ix2 r q) := by
  have ha' : ∀ k : Fin 256, shapeCast Cert.KernelIdeal.S2000x256 x1 Cert.KernelIdeal.Facts₀.shapeCasts_S2000x256_S2000x256 (ix2 p k) = A (ix2 r k) :=
    fun k => by rw [shapeCast_self]; exact ha k
  have e1 := narrowed_product_block _ _ kernel_dot0 reference_dot0 Cert.KernelIdeal.Facts₀.bitsLt_bf16_f32 _ Wl A p r q ha'
  have e2 := narrowed_product_block _ _ kernel_dot0 reference_dot0 Cert.KernelIdeal.Facts₀.bitsLt_bf16_f32 x0 Wp X p r q hx
  have e3 := narrowed_product_block _ _ kernel_dot0 reference_dot0 Cert.KernelIdeal.Facts₀.bitsLt_bf16_f32 x0 Wr X p r q hx
  have b1 := bias_block (B := 2000) (M := 50000) bl Cert.KernelIdeal.Facts₀.shapeCasts_S1x128_S1x128 Cert.KernelIdeal.Facts₀.broadcasts_S1x128_S2000x128 bcast_S1x128_S50000x128_0_1 p r q
  have b2 := bias_block (B := 2000) (M := 50000) bp Cert.KernelIdeal.Facts₀.shapeCasts_S1x128_S1x128 Cert.KernelIdeal.Facts₀.broadcasts_S1x128_S2000x128 bcast_S1x128_S50000x128_0_1 p r q
  have z := zero_block (B := 2000) (M := 50000) (N := 128) bcast_S_S50000x128 p r q
  unfold Cert.KernelIdeal.Gen.k0_pay1 layer0
  simp only [addf_apply, maximumf_apply]
  rw [e1, e2, e3, b1, b2, z]

end Cert.Sage

end
-- ==== Proof.Block1.lean ====
/-
  One block of rows of layer 1 and the scoring head.

  The second grid's body computes, from 2000 rows of the first layer's output and of its aggregate and from the whole
  weight matrices and bias rows, layer 1, then the head's hidden layer, then the scores, on those rows — each a matrix
  product of the rows before it. A row of a product reads one row of its left operand: so if rows `p` of the two
  blocks are rows `r` of the two tables, row `p` of the block's layer 1 is row `r` of the whole layer 1, hence row `p`
  of the block's hidden layer is row `r` of the whole hidden layer, hence the block's score `p` is the whole score `r`.
-/
import proofs.«104510_j48885317763286_1_alg».proof.Proof.Block0

noncomputable section

namespace Cert.Sage

open Idealize.ShloMosaic Idealize.ShloMosaic.ValueIdx Cert.Lib.RowBlockLayer
open Cert.ReferenceIdeal Cert.ReferenceIdeal.Facts₀

variable [Cert.KernelIdeal.Facts₀] [Cert.ReferenceIdeal.Facts₀]

theorem kernel_dot1 : Cert.KernelIdeal.dot_S2000x128_S128x128_S2000x128_1_0_0_1_n_n = DotDims.plain 2000 128 128 := rfl
theorem reference_dot1 : dot_S50000x128_S128x128_S50000x128_1_0_0_1_n_n = DotDims.plain 50000 128 128 := rfl
theorem kernel_dot2 : Cert.KernelIdeal.dot_S2000x128_S128x64_S2000x64_1_0_0_1_n_n = DotDims.plain 2000 128 64 := rfl
theorem reference_dot2 : dot_S50000x128_S128x64_S50000x64_1_0_0_1_n_n = DotDims.plain 50000 128 64 := rfl
theorem kernel_dot3 : Cert.KernelIdeal.dot_S2000x64_S64x1_S2000x1_1_0_0_1_n_n = DotDims.plain 2000 64 1 := rfl
theorem reference_dot3 : dot_S50000x64_S64x1_S50000x1_1_0_0_1_n_n = DotDims.plain 50000 64 1 := rfl

/-- The body's layer 1 on a block of rows. -/
def bodyLayer1 (x0 x1 : FVec Ideal Cert.KernelIdeal.S2000x128 .f32) (Wl : FVec Ideal S128x128 .f32) (bl : FVec Ideal S1x128 .f32)
    (Wr : FVec Ideal S128x128 .f32) : FVec Ideal Cert.KernelIdeal.S2000x128 .f32 :=
  addf
    (maximumf
      (addf
        (addf
          (matmul Cert.KernelIdeal.dot_S2000x128_S128x128_S2000x128_1_0_0_1_n_n none
            (truncf .bf16 (shapeCast Cert.KernelIdeal.S2000x128 x1 Cert.KernelIdeal.Facts₀.shapeCasts_S2000x128_S2000x128) Cert.KernelIdeal.Facts₀.bitsLt_bf16_f32)
            (truncf .bf16 Wl Cert.KernelIdeal.Facts₀.bitsLt_bf16_f32) (constant Cert.KernelIdeal.S2000x128 .f32 0x00000000#32))
          (broadcastTo Cert.KernelIdeal.S2000x128 (shapeCast S1x128 bl Cert.KernelIdeal.Facts₀.shapeCasts_S1x128_S1x128) Cert.KernelIdeal.Facts₀.broadcasts_S1x128_S2000x128))
        (matmul Cert.KernelIdeal.dot_S2000x128_S128x128_S2000x128_1_0_0_1_n_n none
          (truncf .bf16 (shapeCast Cert.KernelIdeal.S2000x128 x0 Cert.KernelIdeal.Facts₀.shapeCasts_S2000x128_S2000x128) Cert.KernelIdeal.Facts₀.bitsLt_bf16_f32)
          (truncf .bf16 Wr Cert.KernelIdeal.Facts₀.bitsLt_bf16_f32) (constant Cert.KernelIdeal.S2000x128 .f32 0x00000000#32)))
      (broadcast Cert.KernelIdeal.S2000x128 (Scalar.ofBits (F := Ideal) .f32 0x00000000#32)))
    (shapeCast Cert.KernelIdeal.S2000x128 x0 Cert.KernelIdeal.Facts₀.shapeCasts_S2000x128_S2000x128)

/-- The body's hidden layer on a block of rows of layer 1. -/
def bodyHidden (h : FVec Ideal Cert.KernelIdeal.S2000x128 .f32) (W1 : FVec Ideal S128x64 .f32) (b1 : FVec Ideal S1x64 .f32) :
    FVec Ideal Cert.KernelIdeal.S2000x64 .f32 :=
  maximumf
    (addf
      (matmul Cert.KernelIdeal.dot_S2000x128_S128x64_S2000x64_1_0_0_1_n_n none (truncf .bf16 h Cert.KernelIdeal.Facts₀.bitsLt_bf16_f32)
        (truncf .bf16 W1 Cert.KernelIdeal.Facts₀.bitsLt_bf16_f32) (constant Cert.KernelIdeal.S2000x64 .f32 0x00000000#32))
      (broadcastTo Cert.KernelIdeal.S2000x64 (shapeCast S1x64 b1 Cert.KernelIdeal.Facts₀.shapeCasts_S1x64_S1x64) Cert.KernelIdeal.Facts₀.broadcasts_S1x64_S2000x64))
    (broadcast Cert.KernelIdeal.S2000x64 (Scalar.ofBits (F := Ideal) .f32 0x00000000#32))

/-- The body's two payloads composed are the scores of its hidden layer of its layer 1. -/
theorem body_eq (x0 x1 : FVec Ideal Cert.KernelIdeal.S2000x128 .f32) (Wl : FVec Ideal S128x128 .f32) (bl : FVec Ideal S1x128 .f32)
    (Wr : FVec Ideal S128x128 .f32) (W1 : FVec Ideal S128x64 .f32) (b1 : FVec Ideal S1x64 .f32) (W2 : FVec Ideal S64x1 .f32)
    (b2 : FVec Ideal S1x1 .f32) :
    Cert.KernelIdeal.Gen.k1_pay1 (F := Ideal) (Cert.KernelIdeal.Gen.k1_pay2 (F := Ideal) x0 x1 Wl Wr bl W1 b1 W2) b2
      = addf
          (matmul Cert.KernelIdeal.dot_S2000x64_S64x1_S2000x1_1_0_0_1_n_n none
            (truncf .bf16 (bodyHidden (bodyLayer1 x0 x1 Wl bl Wr) W1 b1) Cert.KernelIdeal.Facts₀.bitsLt_bf16_f32)
            (truncf .bf16 W2 Cert.KernelIdeal.Facts₀.bitsLt_bf16_f32) (constant Cert.KernelIdeal.S2000x1 .f32 0x00000000#32))
          (broadcastTo Cert.KernelIdeal.S2000x1 (shapeCast S1x1 b2 Cert.KernelIdeal.Facts₀.shapeCasts_S1x1_S1x1) Cert.KernelIdeal.Facts₀.broadcasts_S1x1_S2000x1) := rfl

/-- Row `p` of the block's layer 1 is row `r` of layer 1. -/
theorem layer1_block (x0 x1 : FVec Ideal Cert.KernelIdeal.S2000x128 .f32) (Wl : FVec Ideal S128x128 .f32) (bl : FVec Ideal S1x128 .f32)
    (Wr : FVec Ideal S128x128 .f32) (H A : Arr S50000x128) (p : Fin 2000) (r : Fin 50000)
    (hx : ∀ k : Fin 128, x0 (ix2 p k) = H (ix2 r k)) (ha : ∀ k : Fin 128, x1 (ix2 p k) = A (ix2 r k)) (q : Fin 128) :
    bodyLayer1 x0 x1 Wl bl Wr (ix2 p q) = layer1 H A Wl bl Wr (ix2 r q) := by
  have hx' : ∀ k : Fin 128, shapeCast Cert.KernelIdeal.S2000x128 x0 Cert.KernelIdeal.Facts₀.shapeCasts_S2000x128_S2000x128 (ix2 p k) = H (ix2 r k) :=
    fun k => by rw [shapeCast_self]; exact hx k
  have ha' : ∀ k : Fin 128, shapeCast Cert.KernelIdeal.S2000x128 x1 Cert.KernelIdeal.Facts₀.shapeCasts_S2000x128_S2000x128 (ix2 p k) = A (ix2 r k) :=
    fun k => by rw [shapeCast_self]; exact ha k
  have e1 := narrowed_product_block _ _ kernel_dot1 reference_dot1 Cert.KernelIdeal.Facts₀.bitsLt_bf16_f32 _ Wl A p r q ha'
  have e2 := narrowed_product_block _ _ kernel_dot1 reference_dot1 Cert.KernelIdeal.Facts₀.bitsLt_bf16_f32 _ Wr H p r q hx'
  have b := bias_block (B := 2000) (M := 50000) bl Cert.KernelIdeal.Facts₀.shapeCasts_S1x128_S1x128 Cert.KernelIdeal.Facts₀.broadcasts_S1x128_S2000x128 bcast_S1x128_S50000x128_0_1 p r q
  have z := zero_block (B := 2000) (M := 50000) (N := 128) bcast_S_S50000x128 p r q
  unfold bodyLayer1 layer1
  simp only [addf_apply, maximumf_apply]
  rw [e1, e2, b, z, hx' q]

/-- Row `p` of the block's hidden layer is row `r` of the hidden layer, when row `p` of the block's layer 1 is row `r`
    of layer 1. -/
theorem hidden_block (h : FVec Ideal Cert.KernelIdeal.S2000x128 .f32) (W1 : FVec Ideal S128x64 .f32) (b1 : FVec Ideal S1x64 .f32)
    (L : Arr S50000x128) (p : Fin 2000) (r : Fin 50000) (hh : ∀ k : Fin 128, h (ix2 p k) = L (ix2 r k)) (q : Fin 64) :
    bodyHidden h W1 b1 (ix2 p q) = hidden L W1 b1 (ix2 r q) := by
  have e := narrowed_product_block _ _ kernel_dot2 reference_dot2 Cert.KernelIdeal.Facts₀.bitsLt_bf16_f32 h W1 L p r q hh
  have b := bias_block (B := 2000) (M := 50000) b1 Cert.KernelIdeal.Facts₀.shapeCasts_S1x64_S1x64 Cert.KernelIdeal.Facts₀.broadcasts_S1x64_S2000x64 bcast_S1x64_S50000x64_0_1 p r q
  have z := zero_block (B := 2000) (M := 50000) (N := 64) bcast_S_S50000x64 p r q
  unfold bodyHidden hidden
  simp only [addf_apply, maximumf_apply]
  rw [e, b, z]

/-- SCORE `p` OF THE BLOCK IS SCORE `r` OF THE NETWORK'S SECOND HALF. -/
theorem scores_block (x0 x1 : FVec Ideal Cert.KernelIdeal.S2000x128 .f32) (Wl : FVec Ideal S128x128 .f32) (bl : FVec Ideal S1x128 .f32)
    (Wr : FVec Ideal S128x128 .f32) (W1 : FVec Ideal S128x64 .f32) (b1 : FVec Ideal S1x64 .f32) (W2 : FVec Ideal S64x1 .f32)
    (b2 : FVec Ideal S1x1 .f32) (H A : Arr S50000x128) (p : Fin 2000) (r : Fin 50000) (q : Fin 1)
    (hx : ∀ k : Fin 128, x0 (ix2 p k) = H (ix2 r k)) (ha : ∀ k : Fin 128, x1 (ix2 p k) = A (ix2 r k)) :
    Cert.KernelIdeal.Gen.k1_pay1 (F := Ideal) (Cert.KernelIdeal.Gen.k1_pay2 (F := Ideal) x0 x1 Wl Wr bl W1 b1 W2) b2 (ix2 p q)
      = scores H A Wl bl Wr W1 b1 W2 b2 (ix2 r q) := by
  have e := narrowed_product_block _ _ kernel_dot3 reference_dot3 Cert.KernelIdeal.Facts₀.bitsLt_bf16_f32
    (bodyHidden (bodyLayer1 x0 x1 Wl bl Wr) W1 b1) W2 (hidden (layer1 H A Wl bl Wr) W1 b1) p r q
    (hidden_block _ W1 b1 _ p r (layer1_block x0 x1 Wl bl Wr H A p r hx ha))
  have b := bias_block (B := 2000) (M := 50000) b2 Cert.KernelIdeal.Facts₀.shapeCasts_S1x1_S1x1 Cert.KernelIdeal.Facts₀.broadcasts_S1x1_S2000x1 bcast_S1x1_S50000x1_0_1 p r q
  rw [body_eq]
  unfold scores head
  simp only [addf_apply]
  rw [e, b]

end Cert.Sage

end
-- ==== Proof.Final0.lean ====
/-
  The first grid's output array is layer 0 of the arrays the grid is entered with.

  Point `t` of the grid stages rows `2000 t … 2000 t + 1999` of the feature table and of its aggregate, and the whole
  weight matrices and bias rows, and writes back rows `2000 t … 2000 t + 1999` of the output. What it writes is those
  rows of layer 0 (a row of layer 0 reads only that row of the two tables), and the 25 blocks of rows cover the
  output: so the output array ends as layer 0 of the whole tables.
-/
import proofs.«104510_j48885317763286_1_alg».proof.Proof.Gen.KernelIdeal.Frame
import proofs.«104510_j48885317763286_1_alg».proof.Proof.Block0

set_option maxRecDepth 16384

noncomputable section

namespace Cert.Sage

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts₀]
variable (V : (c : Dev nD) → (b : Ref sig .tc) → Buf (Elt Ideal) ((c : Thread nD τ).loc b))

theorem offset_zero : (![0, 0] : Fin 2 → Nat) = fun _ => 0 := funext fun a => by fin_cases a <;> rfl

/-- The printed index maps over the 25 points: the two row-blocked inputs and the output are at block `(t, 0)`, the
    weights and bias rows at block `(0, 0)`. -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The row of the tables that row `p` of point `t`'s blocks is. -/
def row0 (t : Fin cfg0.N) (p : Fin 2000) : Fin 50000 :=
  ⟨t.val * 2000 + p.val, by have := t.isLt; have hN : cfg0.N = 25 := N_0; have := p.isLt; show _ < 50000; omega⟩

/-- Row `p` of the feature block at point `t` is row `row0 t p` of the feature table. -/
theorem block_features (c : Dev nD) (t : Fin cfg0.N) (p : Fin 2000) (k : Fin 256) :
    iblk0 V c 0 t (ix2 p k) = V c main_arg0 (ix2 (row0 t p) k) := by
  show V c main_arg0 (((cfg0.win 0).blk t).view.emb (ix2 p k)) = V c main_arg0 (ix2 (row0 t p) k)
  refine congrArg _ (funext fun a => Fin.ext ?_)
  obtain ⟨e0, e1, -⟩ := index_maps0 t
  match a with
  | ⟨0, _⟩ => show win0_0.index t (0 : Fin 2) * 2000 + 1 * p.val = t.val * 2000 + p.val; omega
  | ⟨1, _⟩ => show win0_0.index t (1 : Fin 2) * 256 + 1 * k.val = k.val; omega

/-- The same for the aggregate. -/
theorem block_aggregate (c : Dev nD) (t : Fin cfg0.N) (p : Fin 2000) (k : Fin 256) :
    iblk0 V c 1 t (ix2 p k) = V c main_v24 (ix2 (row0 t p) k) := by
  show V c main_v24 (((cfg0.win 1).blk t).view.emb (ix2 p k)) = V c main_v24 (ix2 (row0 t p) k)
  refine congrArg _ (funext fun a => Fin.ext ?_)
  obtain ⟨-, -, e0, e1, -⟩ := index_maps0 t
  match a with
  | ⟨0, _⟩ => show win0_1.index t (0 : Fin 2) * 2000 + 1 * p.val = t.val * 2000 + p.val; omega
  | ⟨1, _⟩ => show win0_1.index t (1 : Fin 2) * 256 + 1 * k.val = k.val; omega

/-- A weight matrix or bias row is staged whole at every point. -/
theorem block_Wp (c : Dev nD) (t : Fin cfg0.N) : iblk0 V c 2 t = V c main_arg3 := by
  funext y
  show V c main_arg3 (((cfg0.win 2).blk t).view.emb y) = V c main_arg3 y
  refine congrArg _ (funext fun a => Fin.ext ?_)
  obtain ⟨-, -, -, -, -, -, e0, e1, -⟩ := index_maps0 t
  match a with
  | ⟨0, _⟩ => show win0_2.index t (0 : Fin 2) * 256 + 1 * (y 0).val = (y 0).val; omega
  | ⟨1, _⟩ => show win0_2.index t (1 : Fin 2) * 128 + 1 * (y 1).val = (y 1).val; omega

theorem block_bp (c : Dev nD) (t : Fin cfg0.N) : iblk0 V c 3 t = V c main_v25 := by
  funext y
  show V c main_v25 (((cfg0.win 3).blk t).view.emb y) = V c main_v25 y
  refine congrArg _ (funext fun a => Fin.ext ?_)
  obtain ⟨-, -, -, -, -, -, -, -, e0, e1, -⟩ := index_maps0 t
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem block_Wl (c : Dev nD) (t : Fin cfg0.N) : iblk0 V c 4 t = V c main_arg5 := by
  funext y
  show V c main_arg5 (((cfg0.win 4).blk t).view.emb y) = V c main_arg5 y
  refine congrArg _ (funext fun a => Fin.ext ?_)
  obtain ⟨-, -, -, -, -, -, -, -, -, -, e0, e1, -⟩ := index_maps0 t
  match a with
  | ⟨0, _⟩ => show win0_4.index t (0 : Fin 2) * 256 + 1 * (y 0).val = (y 0).val; omega
  | ⟨1, _⟩ => show win0_4.index t (1 : Fin 2) * 128 + 1 * (y 1).val = (y 1).val; omega

theorem block_bl (c : Dev nD) (t : Fin cfg0.N) : iblk0 V c 5 t = V c main_v26 := by
  funext y
  show V c main_v26 (((cfg0.win 5).blk t).view.emb y) = V c main_v26 y
  refine congrArg _ (funext fun a => Fin.ext ?_)
  obtain ⟨-, -, -, -, -, -, -, -, -, -, -, -, e0, e1, -⟩ := index_maps0 t
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem block_Wr (c : Dev nD) (t : Fin cfg0.N) : iblk0 V c 6 t = V c main_arg7 := by
  funext y
  show V c main_arg7 (((cfg0.win 6).blk t).view.emb y) = V c main_arg7 y
  refine congrArg _ (funext fun a => Fin.ext ?_)
  obtain ⟨-, -, -, -, -, -, -, -, -, -, -, -, -, -, e0, e1⟩ := index_maps0 t
  match a with
  | ⟨0, _⟩ => show win0_6.index t (0 : Fin 2) * 256 + 1 * (y 0).val = (y 0).val; omega
  | ⟨1, _⟩ => show win0_6.index t (1 : Fin 2) * 128 + 1 * (y 1).val = (y 1).val; omega

/-- Layer 0 of the arrays the grid is entered with. -/
abbrev entered0 (c : Dev nD) : Arr Cert.ReferenceIdeal.S50000x128 :=
  layer0 (V c main_arg0) (V c main_v24) (V c main_arg3) (V c main_v25) (V c main_arg5) (V c main_v26) (V c main_arg7)

/-- WHAT POINT `t` WRITES BACK is block `t` of layer 0. -/
theorem flushed0_eq (c : Dev nD) (t : Fin cfg0.N) :
    (dat0 V c).flushed 7 t = ((cfg0.win 7).blk t).view.read (Elt Ideal) (entered0 V c) := by
  show (cfg0.win 7).cut (grid0.coords t) ((dat0 V c).after 7 t) = _
  rw [after0_7]
  unfold out0_7
  rw [View.canon_unit_zero offset_zero]
  simp only [View.ld_unit_zero (S := S2000x256) offset_zero, View.ld_unit_zero (S := S256x128) offset_zero,
    View.ld_unit_zero (S := S1x128) offset_zero]
  rw [block_Wp, block_bp, block_Wl, block_bl, block_Wr]
  refine funext fun (j : S2000x128.Idx) => ?_
  obtain ⟨p, q, rfl⟩ : ∃ (p : Fin 2000) (q : Fin 128), j = ix2 p q := ⟨j 0, j 1, eq_ix2 j⟩
  refine (layer0_block (iblk0 V c 0 t) (iblk0 V c 1 t) (V c main_arg3) (V c main_v25) (V c main_arg5) (V c main_v26) (V c main_arg7)
    (V c main_arg0) (V c main_v24) p (row0 t p) q (block_features V c t p) (block_aggregate V c t p)).trans ?_
  show entered0 V c (ix2 (row0 t p) q) = entered0 V c (((cfg0.win 7).blk t).view.emb (ix2 p q))
  refine congrArg _ (funext fun a => Fin.ext ?_)
  obtain ⟨-, -, -, -, e0, e1, -⟩ := index_maps0 t
  match a with
  | ⟨0, _⟩ => show t.val * 2000 + p.val = win0_7.index t (0 : Fin 2) * 2000 + 1 * p.val; omega
  | ⟨1, _⟩ => show q.val = win0_7.index t (1 : Fin 2) * 128 + 1 * q.val; omega

/-- An index of the output is in point `t`'s block iff each coordinate is in the block's range on its axis. -/
theorem mem_block0 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v27).slice (win0_7.rect t)).set ↔ _
  rw [View.set_slice_whole, Rect.mem_set_unit]
  exact Iff.rfl

/-- Row `r` of the output is in the block of point `r / 2000`. -/
theorem cover0 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  refine ⟨⟨(i 0).val / 2000, by omega⟩, flush0_7 _, ?_⟩
  rw [mem_block0]
  obtain ⟨-, -, -, -, e0, e1, -⟩ := index_maps0 ⟨(i 0).val / 2000, by omega⟩
  intro a
  match a with
  | ⟨0, _⟩ => show win0_7.index _ (0 : Fin 2) * 2000 ≤ (i 0).val ∧ (i 0).val < win0_7.index _ (0 : Fin 2) * 2000 + 2000; rw [e0]; show (i 0).val / 2000 * 2000 ≤ (i 0).val ∧ (i 0).val < (i 0).val / 2000 * 2000 + 2000; omega
  | ⟨1, _⟩ => show win0_7.index _ (1 : Fin 2) * 128 ≤ (i 1).val ∧ (i 1).val < win0_7.index _ (1 : Fin 2) * 128 + 128; rw [e1]; omega

/-- THE OUTPUT ARRAY after the first grid is layer 0 of the arrays it was entered with. -/
theorem final0 (c : Dev nD) : (dat0 V c).arrAt 7 cfg0.N = entered0 V c :=
  (dat0 V c).arrAt_eq_of_cover 7 (entered0 V c) (fun t _ => flushed0_eq V c t) cover0

end Cert.Sage

end
-- ==== Proof.Final1.lean ====
/-
  The second grid's output array is the scores of the arrays the grid is entered with.

  Point `t` of the grid stages rows `2000 t … 2000 t + 1999` of the first layer's output and of its aggregate, and the
  whole weight matrices and bias rows, and writes back scores `2000 t … 2000 t + 1999`. What it writes is those
  scores of the network's second half, and the 25 blocks cover the column of scores.
-/
import proofs.«104510_j48885317763286_1_alg».proof.Proof.Gen.KernelIdeal.Frame
import proofs.«104510_j48885317763286_1_alg».proof.Proof.Block1
import proofs.«104510_j48885317763286_1_alg».proof.Proof.Final0

set_option maxRecDepth 16384

noncomputable section

namespace Cert.Sage

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts₀]
variable (V : (c : Dev nD) → (b : Ref sig .tc) → Buf (Elt Ideal) ((c : Thread nD τ).loc b))

/-- The printed index maps over the 25 points: the two row-blocked inputs and the output are at block `(t, 0)`, the
    weights and bias rows at block `(0, 0)`. -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The row of the tables that row `p` of point `t`'s blocks is. -/
def tableRow1 (t : Fin cfg1.N) (p : Fin 2000) : Fin 50000 :=
  ⟨t.val * 2000 + p.val, by have := t.isLt; have hN : cfg1.N = 25 := N_1; have := p.isLt; show _ < 50000; omega⟩

/-- Row `p` of the first block at point `t` is row `tableRow1 t p` of the first layer's output. -/
theorem block1_layer0 (c : Dev nD) (t : Fin cfg1.N) (p : Fin 2000) (k : Fin 128) :
    iblk1 V c 0 t (ix2 p k) = V c main_v27 (ix2 (tableRow1 t p) k) := by
  show V c main_v27 (((cfg1.win 0).blk t).view.emb (ix2 p k)) = V c main_v27 (ix2 (tableRow1 t p) k)
  refine congrArg _ (funext fun a => Fin.ext ?_)
  obtain ⟨e0, e1, -⟩ := index_maps1 t
  match a with
  | ⟨0, _⟩ => show win1_0.index t (0 : Fin 2) * 2000 + 1 * p.val = t.val * 2000 + p.val; omega
  | ⟨1, _⟩ => show win1_0.index t (1 : Fin 2) * 128 + 1 * k.val = k.val; omega

/-- The same for its aggregate. -/
theorem block1_aggregate (c : Dev nD) (t : Fin cfg1.N) (p : Fin 2000) (k : Fin 128) :
    iblk1 V c 1 t (ix2 p k) = V c main_v40 (ix2 (tableRow1 t p) k) := by
  show V c main_v40 (((cfg1.win 1).blk t).view.emb (ix2 p k)) = V c main_v40 (ix2 (tableRow1 t p) k)
  refine congrArg _ (funext fun a => Fin.ext ?_)
  obtain ⟨-, -, e0, e1, -⟩ := index_maps1 t
  match a with
  | ⟨0, _⟩ => show win1_1.index t (0 : Fin 2) * 2000 + 1 * p.val = t.val * 2000 + p.val; omega
  | ⟨1, _⟩ => show win1_1.index t (1 : Fin 2) * 128 + 1 * k.val = k.val; omega

/-! A weight matrix or bias row is staged whole at every point. -/

theorem block1_Wl (c : Dev nD) (t : Fin cfg1.N) : iblk1 V c 2 t = V c main_arg8 := by
  funext y
  show V c main_arg8 (((cfg1.win 2).blk t).view.emb y) = V c main_arg8 y
  refine congrArg _ (funext fun a => Fin.ext ?_)
  obtain ⟨-, -, -, -, -, -, e0, e1, -⟩ := index_maps1 t
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem block1_bl (c : Dev nD) (t : Fin cfg1.N) : iblk1 V c 3 t = V c main_v41 := by
  funext y
  show V c main_v41 (((cfg1.win 3).blk t).view.emb y) = V c main_v41 y
  refine congrArg _ (funext fun a => Fin.ext ?_)
  obtain ⟨-, -, -, -, -, -, -, -, e0, e1, -⟩ := index_maps1 t
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem block1_Wr (c : Dev nD) (t : Fin cfg1.N) : iblk1 V c 4 t = V c main_arg10 := by
  funext y
  show V c main_arg10 (((cfg1.win 4).blk t).view.emb y) = V c main_arg10 y
  refine congrArg _ (funext fun a => Fin.ext ?_)
  obtain ⟨-, -, -, -, -, -, -, -, -, -, e0, e1, -⟩ := index_maps1 t
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem block1_W1 (c : Dev nD) (t : Fin cfg1.N) : iblk1 V c 5 t = V c main_arg11 := by
  funext y
  show V c main_arg11 (((cfg1.win 5).blk t).view.emb y) = V c main_arg11 y
  refine congrArg _ (funext fun a => Fin.ext ?_)
  obtain ⟨-, -, -, -, -, -, -, -, -, -, -, -, e0, e1, -⟩ := index_maps1 t
  match a with
  | ⟨0, _⟩ => show win1_5.index t (0 : Fin 2) * 128 + 1 * (y 0).val = (y 0).val; omega
  | ⟨1, _⟩ => show win1_5.index t (1 : Fin 2) * 64 + 1 * (y 1).val = (y 1).val; omega

theorem block1_b1 (c : Dev nD) (t : Fin cfg1.N) : iblk1 V c 6 t = V c main_v42 := by
  funext y
  show V c main_v42 (((cfg1.win 6).blk t).view.emb y) = V c main_v42 y
  refine congrArg _ (funext fun a => Fin.ext ?_)
  obtain ⟨-, -, -, -, -, -, -, -, -, -, -, -, -, -, e0, e1, -⟩ := index_maps1 t
  match a with
  | ⟨0, _⟩ => show win1_6.index t (0 : Fin 2) * 1 + 1 * (y 0).val = (y 0).val; omega
  | ⟨1, _⟩ => show win1_6.index t (1 : Fin 2) * 64 + 1 * (y 1).val = (y 1).val; omega

theorem block1_W2 (c : Dev nD) (t : Fin cfg1.N) : iblk1 V c 7 t = V c main_arg13 := by
  funext y
  show V c main_arg13 (((cfg1.win 7).blk t).view.emb y) = V c main_arg13 y
  refine congrArg _ (funext fun a => Fin.ext ?_)
  obtain ⟨-, -, -, -, -, -, -, -, -, -, -, -, -, -, -, -, e0, e1, -⟩ := index_maps1 t
  match a with
  | ⟨0, _⟩ => show win1_7.index t (0 : Fin 2) * 64 + 1 * (y 0).val = (y 0).val; omega
  | ⟨1, _⟩ => show win1_7.index t (1 : Fin 2) * 1 + 1 * (y 1).val = (y 1).val; omega

theorem block1_b2 (c : Dev nD) (t : Fin cfg1.N) : iblk1 V c 8 t = V c main_v43 := by
  funext y
  show V c main_v43 (((cfg1.win 8).blk t).view.emb y) = V c main_v43 y
  refine congrArg _ (funext fun a => Fin.ext ?_)
  obtain ⟨-, -, -, -, -, -, -, -, -, -, -, -, -, -, -, -, -, -, e0, e1⟩ := index_maps1 t
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- The network's second half of the arrays the grid is entered with. -/
abbrev entered1 (c : Dev nD) : Arr Cert.ReferenceIdeal.S50000x1 :=
  scores (V c main_v27) (V c main_v40) (V c main_arg8) (V c main_v41) (V c main_arg10) (V c main_arg11) (V c main_v42)
    (V c main_arg13) (V c main_v43)

/-- WHAT POINT `t` WRITES BACK is block `t` of the scores. -/
theorem flushed1_eq (c : Dev nD) (t : Fin cfg1.N) :
    (dat1 V c).flushed 9 t = ((cfg1.win 9).blk t).view.read (Elt Ideal) (entered1 V c) := by
  show (cfg1.win 9).cut (grid1.coords t) ((dat1 V c).after 9 t) = _
  rw [after1_9]
  unfold out1_9
  rw [View.canon_unit_zero offset_zero]
  simp only [View.ld_unit_zero (S := S2000x128) offset_zero, View.ld_unit_zero (S := S128x128) offset_zero,
    View.ld_unit_zero (S := S1x128) offset_zero, View.ld_unit_zero (S := S128x64) offset_zero,
    View.ld_unit_zero (S := S1x64) offset_zero, View.ld_unit_zero (S := S64x1) offset_zero,
    View.ld_unit_zero (S := S1x1) offset_zero]
  rw [block1_Wl, block1_bl, block1_Wr, block1_W1, block1_b1, block1_W2, block1_b2]
  refine funext fun (j : S2000x1.Idx) => ?_
  obtain ⟨p, q, rfl⟩ : ∃ (p : Fin 2000) (q : Fin 1), j = ix2 p q := ⟨j 0, j 1, eq_ix2 j⟩
  refine (scores_block (iblk1 V c 0 t) (iblk1 V c 1 t) (V c main_arg8) (V c main_v41) (V c main_arg10) (V c main_arg11)
    (V c main_v42) (V c main_arg13) (V c main_v43) (V c main_v27) (V c main_v40) p (tableRow1 t p) q
    (block1_layer0 V c t p) (block1_aggregate V c t p)).trans ?_
  show entered1 V c (ix2 (tableRow1 t p) q) = entered1 V c (((cfg1.win 9).blk t).view.emb (ix2 p q))
  refine congrArg _ (funext fun a => Fin.ext ?_)
  obtain ⟨-, -, -, -, e0, e1, -⟩ := index_maps1 t
  match a with
  | ⟨0, _⟩ => show t.val * 2000 + p.val = win1_9.index t (0 : Fin 2) * 2000 + 1 * p.val; omega
  | ⟨1, _⟩ => show q.val = win1_9.index t (1 : Fin 2) * 1 + 1 * q.val; omega

/-- An index of the output is in point `t`'s block iff each coordinate is in the block's range on its axis. -/
theorem mem_block1 (t : Fin cfg1.N) (i : S50000x1.Idx) :
    i ∈ ((cfg1.win 9).blk t).view.set ↔ ∀ a : Fin 2, win1_9.index t a * S2000x1.size a ≤ (i a).val ∧ (i a).val < win1_9.index t a * S2000x1.size a + S2000x1.size a := by
  show i ∈ ((View.whole main_v44).slice (win1_9.rect t)).set ↔ _
  rw [View.set_slice_whole, Rect.mem_set_unit]
  exact Iff.rfl

/-- Score `r` is in the block of point `r / 2000`. -/
theorem cover1 (i : S50000x1.Idx) : ∃ t : Fin cfg1.N, (cfg1.win 9).flush t = true ∧ i ∈ ((cfg1.win 9).blk t).view.set := by
  have hi0 : (i 0).val < 50000 := (i 0).isLt
  have hi1 : (i 1).val < 1 := (i 1).isLt
  have hN : cfg1.N = 25 := N_1
  refine ⟨⟨(i 0).val / 2000, by omega⟩, flush1_9 _, ?_⟩
  rw [mem_block1]
  obtain ⟨-, -, -, -, e0, e1, -⟩ := index_maps1 ⟨(i 0).val / 2000, by omega⟩
  intro a
  match a with
  | ⟨0, _⟩ => show win1_9.index _ (0 : Fin 2) * 2000 ≤ (i 0).val ∧ (i 0).val < win1_9.index _ (0 : Fin 2) * 2000 + 2000; rw [e0]; show (i 0).val / 2000 * 2000 ≤ (i 0).val ∧ (i 0).val < (i 0).val / 2000 * 2000 + 2000; omega
  | ⟨1, _⟩ => show win1_9.index _ (1 : Fin 2) * 1 ≤ (i 1).val ∧ (i 1).val < win1_9.index _ (1 : Fin 2) * 1 + 1; rw [e1]; omega

/-- THE OUTPUT ARRAY after the second grid is the scores of the arrays it was entered with. -/
theorem final1 (c : Dev nD) : (dat1 V c).arrAt 9 cfg1.N = entered1 V c :=
  (dat1 V c).arrAt_eq_of_cover 9 (entered1 V c) (fun t _ => flushed1_eq V c t) cover1

end Cert.Sage

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibVectorAsMatrix.lean ====
/-
  Two ways of setting a vector as a one-column or a one-row matrix give the same array: a reshape [n] → [n, 1]
  and the broadcast that sends the vector's axis to axis 0 both read, at (r, u), the vector at r; a reshape
  [n] → [1, n] and the broadcast that sends the vector's axis to axis 1 both read, at (u, q), the vector at q.
-/
import proofs.«104510_j48885317763286_1_alg».proof.Proof.LibKeepdims
import proofs.«104510_j48885317763286_1_alg».proof.Proof.LibBroadcastInDim
import Idealize.ShloMosaic.Lib.ValueLayout
import Idealize.ShloMosaic.Lib.ValueIdx

namespace Cert.Lib.VectorAsMatrix

open Idealize.ShloMosaic Idealize.ShloMosaic.ValueIdx

variable {α : Type}

/-- A vector reshaped to a column is the vector broadcast along axis 0 of the column's shape. -/
theorem col_eq {n : ℕ} (x : (⟨1, ![n]⟩ : Shape).Idx → α) (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ x h = broadcastInDim ⟨2, ![n, 1]⟩ (![0] : Fin 1 → Fin 2) h' x := by
  funext j
  obtain ⟨r, u, rfl⟩ : ∃ (r : Fin n) (u : Fin 1), j = ix2 r u := ⟨j 0, j 1, eq_ix2 j⟩
  rw [Cert.Lib.Keepdims.shapeCast_a_a1_apply, Cert.Lib.BroadcastInDim.vec_col_apply]

/-- A vector reshaped to a row is the vector broadcast along axis 1 of the row's shape. -/
theorem row_eq {n : ℕ} (x : (⟨1, ![n]⟩ : Shape).Idx → α) (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ (![1] : Fin 1 → Fin 2) h' x := by
  funext j
  obtain ⟨u, q, rfl⟩ : ∃ (u : Fin 1) (q : Fin n), j = ix2 u q := ⟨j 0, j 1, eq_ix2 j⟩
  rw [shapeCast_a_1a_apply, Cert.Lib.BroadcastInDim.vec_row_apply]

end Cert.Lib.VectorAsMatrix
-- ==== Proof.Reads.lean ====
/-
  The idealized kernel's result buffer holds the network with its means written as products.

  The program's buffers are followed through its five stretches. The host operations before the first grid leave the
  two rows of the edge array, the reciprocal clamped degree, the aggregate of the features (edge sums times the
  reciprocal degree) and the two bias rows. The first grid leaves layer 0 of those. The host operations between the
  grids leave the aggregate of layer 0's output and three more bias rows. The second grid leaves the scores. The last
  host operations blend them with the given scores. A buffer that a stretch does not write keeps its contents, and a
  bias vector reshaped to a row is the vector set as a row.
-/
import proofs.«104510_j48885317763286_1_alg».proof.Proof.Gen.KernelIdeal.Frame
import proofs.«104510_j48885317763286_1_alg».proof.Proof.Final1
import proofs.«104510_j48885317763286_1_alg».proof.Proof.LibVectorAsMatrix

set_option maxRecDepth 16384

noncomputable section

namespace Cert.Sage

open Cert.KernelIdeal Cert.KernelIdeal.Gen Idealize.ShloMosaic Idealize.ShloMosaic.TcCoe Idealize.SL.Sem
open Idealize.ShloMosaic.StableHlo

variable [Cert.ReferenceIdeal.Facts₀]
variable (m : (ℓ : Loc nD τ sig) → Buf (Elt Ideal) ℓ) (ρ : Dev nD → PrngReg)

/-- A buffer that no operation of a stretch writes holds after it what it held before. -/
local macro "unwritten" ops:ident : term => `(StableHlo.after_of_forall_not_mem _ _ (List.forall_iff_forall_mem.mp (by
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

/-! ## Before the first grid -/

theorem W1_arg0 (c : Dev nD) : W1 m ρ c (Proc.devRef .tc main_arg0) = m ((c : Thread nD τ).loc main_arg0) := unwritten hostOps0
theorem W1_arg2 (c : Dev nD) : W1 m ρ c (Proc.devRef .tc main_arg2) = m ((c : Thread nD τ).loc main_arg2) := unwritten hostOps0
theorem W1_arg3 (c : Dev nD) : W1 m ρ c (Proc.devRef .tc main_arg3) = m ((c : Thread nD τ).loc main_arg3) := unwritten hostOps0
theorem W1_arg4 (c : Dev nD) : W1 m ρ c (Proc.devRef .tc main_arg4) = m ((c : Thread nD τ).loc main_arg4) := unwritten hostOps0
theorem W1_arg5 (c : Dev nD) : W1 m ρ c (Proc.devRef .tc main_arg5) = m ((c : Thread nD τ).loc main_arg5) := unwritten hostOps0
theorem W1_arg6 (c : Dev nD) : W1 m ρ c (Proc.devRef .tc main_arg6) = m ((c : Thread nD τ).loc main_arg6) := unwritten hostOps0
theorem W1_arg7 (c : Dev nD) : W1 m ρ c (Proc.devRef .tc main_arg7) = m ((c : Thread nD τ).loc main_arg7) := unwritten hostOps0
theorem W1_arg8 (c : Dev nD) : W1 m ρ c (Proc.devRef .tc main_arg8) = m ((c : Thread nD τ).loc main_arg8) := unwritten hostOps0
theorem W1_arg9 (c : Dev nD) : W1 m ρ c (Proc.devRef .tc main_arg9) = m ((c : Thread nD τ).loc main_arg9) := unwritten hostOps0
theorem W1_arg10 (c : Dev nD) : W1 m ρ c (Proc.devRef .tc main_arg10) = m ((c : Thread nD τ).loc main_arg10) := unwritten hostOps0
theorem W1_arg11 (c : Dev nD) : W1 m ρ c (Proc.devRef .tc main_arg11) = m ((c : Thread nD τ).loc main_arg11) := unwritten hostOps0
theorem W1_arg12 (c : Dev nD) : W1 m ρ c (Proc.devRef .tc main_arg12) = m ((c : Thread nD τ).loc main_arg12) := unwritten hostOps0
theorem W1_arg13 (c : Dev nD) : W1 m ρ c (Proc.devRef .tc main_arg13) = m ((c : Thread nD τ).loc main_arg13) := unwritten hostOps0
theorem W1_arg14 (c : Dev nD) : W1 m ρ c (Proc.devRef .tc main_arg14) = m ((c : Thread nD τ).loc main_arg14) := unwritten hostOps0
theorem W1_arg15 (c : Dev nD) : W1 m ρ c (Proc.devRef .tc main_arg15) = m ((c : Thread nD τ).loc main_arg15) := unwritten hostOps0

/-- The row of source words. -/
theorem W1_src (c : Dev nD) : W1 m ρ c (Proc.devRef .tc main_v1) = srcWords (m ((c : Thread nD τ).loc main_arg1)) := by
  show StableHlo.after hostOps0 (W0 m ρ c) (Proc.devRef .tc main_v1) = _
  after_results_simp
  rfl

/-- The row of destination words. -/
theorem W1_dst (c : Dev nD) : W1 m ρ c (Proc.devRef .tc main_v3) = dstWords (m ((c : Thread nD τ).loc main_arg1)) := by
  show StableHlo.after hostOps0 (W0 m ρ c) (Proc.devRef .tc main_v3) = _
  after_results_simp
  rfl

/-- The reciprocal clamped degree. -/
theorem W1_recip (c : Dev nD) : W1 m ρ c (Proc.devRef .tc main_v11) = recip (degree (dstWords (m ((c : Thread nD τ).loc main_arg1)))) := by
  show StableHlo.after hostOps0 (W0 m ρ c) (Proc.devRef .tc main_v11) = _
  after_results_simp
  rfl

/-- The aggregate of the features, in the product spelling. -/
theorem W1_aggregate (c : Dev nD) : W1 m ρ c (Proc.devRef .tc main_v24)
    = meanProd256 (edgeSum256 (m ((c : Thread nD τ).loc main_arg0)) (srcWords (m ((c : Thread nD τ).loc main_arg1))) (dstWords (m ((c : Thread nD τ).loc main_arg1)))) (degree (dstWords (m ((c : Thread nD τ).loc main_arg1)))) := by
  show StableHlo.after hostOps0 (W0 m ρ c) (Proc.devRef .tc main_v24) = _
  after_results_simp
  rfl

/-- The two bias rows of layer 0. -/
theorem W1_bp (c : Dev nD) : W1 m ρ c (Proc.devRef .tc main_v25) = row128 (m ((c : Thread nD τ).loc main_arg4)) := by
  show StableHlo.after hostOps0 (W0 m ρ c) (Proc.devRef .tc main_v25) = _
  after_results_simp
  exact Cert.Lib.VectorAsMatrix.row_eq _ _ _

theorem W1_bl (c : Dev nD) : W1 m ρ c (Proc.devRef .tc main_v26) = row128 (m ((c : Thread nD τ).loc main_arg6)) := by
  show StableHlo.after hostOps0 (W0 m ρ c) (Proc.devRef .tc main_v26) = _
  after_results_simp
  exact Cert.Lib.VectorAsMatrix.row_eq _ _ _

/-! ## The first grid -/

/-- Layer 0 of the arguments, its aggregate in the product spelling. -/
abbrev firstLayer (c : Dev nD) : Arr Cert.ReferenceIdeal.S50000x128 :=
  layer0 (m ((c : Thread nD τ).loc main_arg0)) (meanProd256 (edgeSum256 (m ((c : Thread nD τ).loc main_arg0)) (srcWords (m ((c : Thread nD τ).loc main_arg1))) (dstWords (m ((c : Thread nD τ).loc main_arg1)))) (degree (dstWords (m ((c : Thread nD τ).loc main_arg1)))))
    (m ((c : Thread nD τ).loc main_arg3)) (row128 (m ((c : Thread nD τ).loc main_arg4))) (m ((c : Thread nD τ).loc main_arg5)) (row128 (m ((c : Thread nD τ).loc main_arg6))) (m ((c : Thread nD τ).loc main_arg7))

/-- The first grid leaves layer 0 in its output array. -/
theorem W2_layer0 (c : Dev nD) : W2 m ρ c (Proc.devRef .tc main_v27) = firstLayer m c := by
  refine (W2_arr m ρ c 7).trans ((final0 (V1 m ρ) c).trans ?_)
  show layer0 (W1 m ρ c (Proc.devRef .tc main_arg0)) (W1 m ρ c (Proc.devRef .tc main_v24)) (W1 m ρ c (Proc.devRef .tc main_arg3))
    (W1 m ρ c (Proc.devRef .tc main_v25)) (W1 m ρ c (Proc.devRef .tc main_arg5)) (W1 m ρ c (Proc.devRef .tc main_v26))
    (W1 m ρ c (Proc.devRef .tc main_arg7)) = _
  rw [W1_arg0, W1_aggregate, W1_arg3, W1_bp, W1_arg5, W1_bl, W1_arg7]

/-- A buffer that is no array of the first grid's windows is as the grid found it. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-! ## Between the grids -/

theorem W3_arg2 (c : Dev nD) : W3 m ρ c (Proc.devRef .tc main_arg2) = m ((c : Thread nD τ).loc main_arg2) :=
  (unwritten hostOps1 : W3 m ρ c (Proc.devRef .tc main_arg2) = W2 m ρ c (Proc.devRef .tc main_arg2)).trans
    ((W2_keep m ρ c main_arg2 (by decide)).trans (W1_arg2 m ρ c))
theorem W3_arg8 (c : Dev nD) : W3 m ρ c (Proc.devRef .tc main_arg8) = m ((c : Thread nD τ).loc main_arg8) :=
  (unwritten hostOps1 : W3 m ρ c (Proc.devRef .tc main_arg8) = W2 m ρ c (Proc.devRef .tc main_arg8)).trans
    ((W2_keep m ρ c main_arg8 (by decide)).trans (W1_arg8 m ρ c))
theorem W3_arg10 (c : Dev nD) : W3 m ρ c (Proc.devRef .tc main_arg10) = m ((c : Thread nD τ).loc main_arg10) :=
  (unwritten hostOps1 : W3 m ρ c (Proc.devRef .tc main_arg10) = W2 m ρ c (Proc.devRef .tc main_arg10)).trans
    ((W2_keep m ρ c main_arg10 (by decide)).trans (W1_arg10 m ρ c))
theorem W3_arg11 (c : Dev nD) : W3 m ρ c (Proc.devRef .tc main_arg11) = m ((c : Thread nD τ).loc main_arg11) :=
  (unwritten hostOps1 : W3 m ρ c (Proc.devRef .tc main_arg11) = W2 m ρ c (Proc.devRef .tc main_arg11)).trans
    ((W2_keep m ρ c main_arg11 (by decide)).trans (W1_arg11 m ρ c))
theorem W3_arg13 (c : Dev nD) : W3 m ρ c (Proc.devRef .tc main_arg13) = m ((c : Thread nD τ).loc main_arg13) :=
  (unwritten hostOps1 : W3 m ρ c (Proc.devRef .tc main_arg13) = W2 m ρ c (Proc.devRef .tc main_arg13)).trans
    ((W2_keep m ρ c main_arg13 (by decide)).trans (W1_arg13 m ρ c))
theorem W3_arg15 (c : Dev nD) : W3 m ρ c (Proc.devRef .tc main_arg15) = m ((c : Thread nD τ).loc main_arg15) :=
  (unwritten hostOps1 : W3 m ρ c (Proc.devRef .tc main_arg15) = W2 m ρ c (Proc.devRef .tc main_arg15)).trans
    ((W2_keep m ρ c main_arg15 (by decide)).trans (W1_arg15 m ρ c))

theorem W3_layer0 (c : Dev nD) : W3 m ρ c (Proc.devRef .tc main_v27) = firstLayer m c :=
  (unwritten hostOps1 : W3 m ρ c (Proc.devRef .tc main_v27) = W2 m ρ c (Proc.devRef .tc main_v27)).trans (W2_layer0 m ρ c)

/-- The aggregate of layer 0's output, in the product spelling. -/
theorem W3_aggregate (c : Dev nD) : W3 m ρ c (Proc.devRef .tc main_v40)
    = meanProd128 (edgeSum128 (firstLayer m c) (srcWords (m ((c : Thread nD τ).loc main_arg1))) (dstWords (m ((c : Thread nD τ).loc main_arg1)))) (degree (dstWords (m ((c : Thread nD τ).loc main_arg1)))) := by
  show StableHlo.after hostOps1 (W2 m ρ c) (Proc.devRef .tc main_v40) = _
  after_results_simp
  rw [W2_layer0, W2_keep m ρ c main_v1 (by decide), W2_keep m ρ c main_v3 (by decide), W2_keep m ρ c main_v11 (by decide),
    W1_src, W1_dst, W1_recip]
  rfl

/-- The three bias rows of layer 1 and the head. -/
theorem W3_bl (c : Dev nD) : W3 m ρ c (Proc.devRef .tc main_v41) = row128 (m ((c : Thread nD τ).loc main_arg9)) := by
  show StableHlo.after hostOps1 (W2 m ρ c) (Proc.devRef .tc main_v41) = _
  after_results_simp
  rw [W2_keep m ρ c main_arg9 (by decide), W1_arg9]
  exact Cert.Lib.VectorAsMatrix.row_eq _ _ _

theorem W3_b1 (c : Dev nD) : W3 m ρ c (Proc.devRef .tc main_v42) = row64 (m ((c : Thread nD τ).loc main_arg12)) := by
  show StableHlo.after hostOps1 (W2 m ρ c) (Proc.devRef .tc main_v42) = _
  after_results_simp
  rw [W2_keep m ρ c main_arg12 (by decide), W1_arg12]
  exact Cert.Lib.VectorAsMatrix.row_eq _ _ _

theorem W3_b2 (c : Dev nD) : W3 m ρ c (Proc.devRef .tc main_v43) = row1 (m ((c : Thread nD τ).loc main_arg14)) := by
  show StableHlo.after hostOps1 (W2 m ρ c) (Proc.devRef .tc main_v43) = _
  after_results_simp
  rw [W2_keep m ρ c main_arg14 (by decide), W1_arg14]
  exact Cert.Lib.VectorAsMatrix.row_eq _ _ _

/-! ## The second grid -/

/-- The second grid leaves the scores in its output array. -/
theorem W4_scores (c : Dev nD) : W4 m ρ c (Proc.devRef .tc main_v44)
    = scores (firstLayer m c)
        (meanProd128 (edgeSum128 (firstLayer m c) (srcWords (m ((c : Thread nD τ).loc main_arg1))) (dstWords (m ((c : Thread nD τ).loc main_arg1)))) (degree (dstWords (m ((c : Thread nD τ).loc main_arg1)))))
        (m ((c : Thread nD τ).loc main_arg8)) (row128 (m ((c : Thread nD τ).loc main_arg9))) (m ((c : Thread nD τ).loc main_arg10)) (m ((c : Thread nD τ).loc main_arg11)) (row64 (m ((c : Thread nD τ).loc main_arg12))) (m ((c : Thread nD τ).loc main_arg13)) (row1 (m ((c : Thread nD τ).loc main_arg14))) := by
  refine (W4_arr m ρ c 9).trans ((final1 (V3 m ρ) c).trans ?_)
  show scores (W3 m ρ c (Proc.devRef .tc main_v27)) (W3 m ρ c (Proc.devRef .tc main_v40)) (W3 m ρ c (Proc.devRef .tc main_arg8))
    (W3 m ρ c (Proc.devRef .tc main_v41)) (W3 m ρ c (Proc.devRef .tc main_arg10)) (W3 m ρ c (Proc.devRef .tc main_arg11))
    (W3 m ρ c (Proc.devRef .tc main_v42)) (W3 m ρ c (Proc.devRef .tc main_arg13)) (W3 m ρ c (Proc.devRef .tc main_v43)) = _
  rw [W3_layer0, W3_aggregate, W3_arg8, W3_bl, W3_arg10, W3_arg11, W3_b1, W3_arg13, W3_b2]

theorem W4_arg2 (c : Dev nD) : W4 m ρ c (Proc.devRef .tc main_arg2) = m ((c : Thread nD τ).loc main_arg2) :=
  (W4_of_ne m ρ c main_arg2 (by decide)).trans (W3_arg2 m ρ c)

theorem W4_arg15 (c : Dev nD) : W4 m ρ c (Proc.devRef .tc main_arg15) = m ((c : Thread nD τ).loc main_arg15) :=
  (W4_of_ne m ρ c main_arg15 (by decide)).trans (W3_arg15 m ρ c)

/-! ## After the second grid -/

/-- THE RESULT BUFFER holds the network of the arguments, its means written as products. -/
theorem kernel_value (c : Dev nD) : W5 m ρ c (Proc.devRef .tc main_v55)
    = networkProd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps2 (W4 m ρ c) (Proc.devRef .tc main_v55) = _
  after_results_simp
  rw [W4_scores, W4_arg2, W4_arg15]
  rfl

end Cert.Sage

end
-- ==== Proof.LibSegmentSum.lean ====
/-
  Accumulating scatters (jnp `.at[idx].add(v)`, `jax.ops.segment_sum`) read at an index, on the extended reals.

  A `stablehlo.scatter` whose body adds lands every update element on the operand element its start index names: the
  start is read SIGNED off the index array and is NOT clamped, and an update whose landing place is outside the operand
  is dropped. At the exact instance the result element is the operand's plus the sum of the updates landing on it.
  Three layouts are read here at coordinates, each as "operand plus the sum over the update's leading axis of the update
  where the index word names this element, zero elsewhere":
  * `rows`: operand `[N, C]`, indices `[R, 1]`, updates `[R, C]` — update row `e` is added to operand row `idx[e,0]`
    (a segment sum of rows);
  * `cells`: operand `[N]`, indices `[R, 1]`, updates `[R]` — update `e` is added to element `idx[e,0]` (a histogram,
    a degree count);
  * `pairs`: operand `[N, M]`, indices `[R, 2]`, updates `[R]` — update `e` is added to element `(idx[e,0], idx[e,1])`
    (a dense matrix assembled from coordinate triples).
-/
import Idealize.ShloMosaic.PureOps.Ideal
import Idealize.ShloMosaic.Lib.ValueIdx

noncomputable section

open scoped BigOperators

namespace Idealize.ShloMosaic.SegmentSum

open Idealize.ShloMosaic Idealize.ShloMosaic.ValueIdx

/-! ## Rows: `[N, C]` at `[R, 1]` by `[R, C]` -/

/-- The dimension numbers of a scatter of whole rows: the update's axis 1 is the window, the operand's axis 0 is the
    one the index names. -/
abbrev rowsDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C M w : Nat}

/-- Where update element `(e, k)` lands: row `idx[e, 0]` read signed, column `k`; nowhere when that row is outside. -/
theorem rows_resultIdx? (wf : ScatterDims.WF ⟨2, ![N, C]⟩ ⟨2, ![R, 1]⟩ ⟨2, ![R, C]⟩ [1] [0] [0] 1)
    (idx : IVec ⟨2, ![R, 1]⟩ w) (e : Fin R) (k : Fin C) (r : Fin N) (c : Fin C) :
    (rowsDims N R C wf).resultIdx? (ix2 e k) idx = some (ix2 r c)
      ↔ (idx (ix2 e 0)).toInt = (r.val : Int) ∧ k = c := by
  have hs0 : (rowsDims N R C wf).start (ix2 e k) idx 0 = (idx (ix2 e 0)).toInt := by
    unfold ScatterDims.start
    rw [dif_pos (show (0 : Fin 2) ∈ (rowsDims N R C wf).scatterDimsToOperandDims from List.mem_singleton.mpr rfl)]
    congr 2
    funext b; refine Fin.ext ?_
    match b with
    | ⟨0, _⟩ => rfl
    | ⟨1, _⟩ => rfl
  have hs1 : (rowsDims N R C wf).start (ix2 e k) idx 1 = 0 := by
    unfold ScatterDims.start
    rw [dif_neg (show (1 : Fin 2) ∉ ([0] : List (Fin 2)) by decide)]
  have hw0 : (rowsDims N R C wf).window (ix2 e k) 0 = 0 := by
    unfold ScatterDims.window
    have hk : (rowsDims N R C wf).sKept = ([1] : List (Fin 2)) := rfl
    rw [dif_neg (hk ▸ (by decide : (0 : Fin 2) ∉ ([1] : List (Fin 2))))]
  have hw1 : (rowsDims N R C wf).window (ix2 e k) 1 = k.val := by
    unfold ScatterDims.window
    have hk : (rowsDims N R C wf).sKept = ([1] : List (Fin 2)) := rfl
    rw [dif_pos (hk ▸ (by decide : (1 : Fin 2) ∈ ([1] : List (Fin 2))))]
    rfl
  unfold ScatterDims.resultIdx?
  constructor
  · intro h
    split at h
    · rename_i hin
      have h' := Option.some.inj h
      have h0 := congrArg (fun i => ((i (0 : Fin 2) : Fin _) : ℕ)) h'
      have h1 := congrArg (fun i => ((i (1 : Fin 2) : Fin _) : ℕ)) h'
      simp only [hs0, hs1, hw0, hw1] at h0 h1
      have hin0 := hin 0
      rw [hs0, hw0] at hin0
      refine ⟨?_, Fin.ext ?_⟩
      · have : ((idx (ix2 e 0)).toInt + ((0 : ℕ) : Int)).toNat = r.val := h0
        omega
      · have : ((0 : Int) + (k.val : Int)).toNat = c.val := h1
        omega
    · exact absurd h (by simp)
  · rintro ⟨hr, rfl⟩
    have e0 : (rowsDims N R C wf).start (ix2 e k) idx 0 + (rowsDims N R C wf).window (ix2 e k) 0 = (r.val : Int) := by
      rw [hs0, hw0, hr]; omega
    have e1 : (rowsDims N R C wf).start (ix2 e k) idx 1 + (rowsDims N R C wf).window (ix2 e k) 1 = (k.val : Int) := by
      rw [hs1, hw1]; omega
    have hin : ∀ a : Fin 2, 0 ≤ (rowsDims N R C wf).start (ix2 e k) idx a + (rowsDims N R C wf).window (ix2 e k) a
        ∧ (rowsDims N R C wf).start (ix2 e k) idx a + (rowsDims N R C wf).window (ix2 e k) a < (⟨2, ![N, C]⟩ : Shape).size a := by
      intro a
      match a with
      | ⟨0, _⟩ =>
        have h : 0 ≤ (rowsDims N R C wf).start (ix2 e k) idx 0 + (rowsDims N R C wf).window (ix2 e k) 0
            ∧ (rowsDims N R C wf).start (ix2 e k) idx 0 + (rowsDims N R C wf).window (ix2 e k) 0 < (N : Int) := by
          rw [e0]; have := r.isLt; constructor <;> omega
        exact h
      | ⟨1, _⟩ =>
        have h : 0 ≤ (rowsDims N R C wf).start (ix2 e k) idx 1 + (rowsDims N R C wf).window (ix2 e k) 1
            ∧ (rowsDims N R C wf).start (ix2 e k) idx 1 + (rowsDims N R C wf).window (ix2 e k) 1 < (C : Int) := by
          rw [e1]; have := k.isLt; constructor <;> omega
        exact h
    rw [dif_pos hin]
    congr 1
    funext a; refine Fin.ext ?_
    match a with
    | ⟨0, _⟩ =>
      show ((rowsDims N R C wf).start (ix2 e k) idx 0 + (rowsDims N R C wf).window (ix2 e k) 0).toNat = r.val
      rw [e0]; omega
    | ⟨1, _⟩ =>
      show ((rowsDims N R C wf).start (ix2 e k) idx 1 + (rowsDims N R C wf).window (ix2 e k) 1).toNat = k.val
      rw [e1]; omega

/-- THE ROW SCATTER READ AT `(r, c)`: the operand's element plus the sum, over the update rows `e` whose index word
    `idx[e, 0]` (read signed) is `r`, of the update's element `(e, c)`. Rows whose index is negative or `≥ N` add
    nothing. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (r : Fin N) (c : Fin C) :
    Host.scatterAdd (rowsDims N R C wf) x idx upd (ix2 r c)
      = x (ix2 r c) + ∑ e : Fin R, if (idx (ix2 e 0)).toInt = (r.val : Int) then upd (ix2 e c) else 0 := by
  show Ideal.hostScatterAdd (rowsDims N R C wf) x idx upd (ix2 r c) = _
  unfold Ideal.hostScatterAdd
  congr 1
  rw [Finset.sum_filter, sum_idx2]
  refine Finset.sum_congr rfl fun e _ => ?_
  simp only [rows_resultIdx?]
  by_cases h : (idx (ix2 e 0)).toInt = (r.val : Int)
  · simp only [h, true_and, if_true]
    rw [Finset.sum_ite_eq' Finset.univ c fun k => upd (ix2 e k)]
    simp
  · simp [h]

/-! ## Cells: `[N]` at `[R, 1]` by `[R]` -/

/-- The dimension numbers of a scatter of single elements into a vector. -/
abbrev cellsDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update element `e` lands: element `idx[e, 0]` read signed; nowhere when that is outside. -/
theorem cells_resultIdx? (wf : ScatterDims.WF ⟨1, ![N]⟩ ⟨2, ![R, 1]⟩ ⟨1, ![R]⟩ [] [0] [0] 1)
    (idx : IVec ⟨2, ![R, 1]⟩ w) (e : Fin R) (r : Fin N) :
    (cellsDims N R wf).resultIdx? (ix1 e) idx = some (ix1 r) ↔ (idx (ix2 e 0)).toInt = (r.val : Int) := by
  have hs0 : (cellsDims N R wf).start (ix1 e) idx 0 = (idx (ix2 e 0)).toInt := by
    unfold ScatterDims.start
    rw [dif_pos (show (0 : Fin 1) ∈ (cellsDims N R wf).scatterDimsToOperandDims from List.mem_singleton.mpr rfl)]
    congr 2
    funext b; refine Fin.ext ?_
    match b with
    | ⟨0, _⟩ => rfl
    | ⟨1, _⟩ => rfl
  have hw0 : (cellsDims N R wf).window (ix1 e) 0 = 0 := by
    unfold ScatterDims.window
    have hk : (cellsDims N R wf).sKept = ([] : List (Fin 1)) := rfl
    rw [dif_neg (hk ▸ List.not_mem_nil)]
  unfold ScatterDims.resultIdx?
  constructor
  · intro h
    split at h
    · rename_i hin
      have h0 := congrArg (fun i => ((i (0 : Fin 1) : Fin _) : ℕ)) (Option.some.inj h)
      simp only [hs0, hw0] at h0
      have hin0 := hin 0
      rw [hs0, hw0] at hin0
      have : ((idx (ix2 e 0)).toInt + ((0 : ℕ) : Int)).toNat = r.val := h0
      omega
    · exact absurd h (by simp)
  · intro hr
    have e0 : (cellsDims N R wf).start (ix1 e) idx 0 + (cellsDims N R wf).window (ix1 e) 0 = (r.val : Int) := by
      rw [hs0, hw0, hr]; omega
    have hin : ∀ a : Fin 1, 0 ≤ (cellsDims N R wf).start (ix1 e) idx a + (cellsDims N R wf).window (ix1 e) a
        ∧ (cellsDims N R wf).start (ix1 e) idx a + (cellsDims N R wf).window (ix1 e) a < (⟨1, ![N]⟩ : Shape).size a := by
      intro a
      match a with
      | ⟨0, _⟩ =>
        have h : 0 ≤ (cellsDims N R wf).start (ix1 e) idx 0 + (cellsDims N R wf).window (ix1 e) 0
            ∧ (cellsDims N R wf).start (ix1 e) idx 0 + (cellsDims N R wf).window (ix1 e) 0 < (N : Int) := by
          rw [e0]; have := r.isLt; constructor <;> omega
        exact h
    rw [dif_pos hin]
    congr 1
    funext a; refine Fin.ext ?_
    match a with
    | ⟨0, _⟩ =>
      show ((cellsDims N R wf).start (ix1 e) idx 0 + (cellsDims N R wf).window (ix1 e) 0).toNat = r.val
      rw [e0]; omega

/-- A sum over the indices of a one-axis array is the sum over its coordinate. -/
theorem sum_ix1 {A : Type*} [AddCommMonoid A] {n : Nat} (g : (⟨1, ![n]⟩ : Shape).Idx → A) : ∑ i, g i = ∑ a : Fin n, g (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm g]
  rfl

/-- THE CELL SCATTER READ AT `r`: the operand's element plus the sum of the updates `e` whose index word `idx[e, 0]`
    (read signed) is `r`. With every update `1` this is the number of index words equal to `r`: a degree count. -/
theorem scatterAdd_cells_apply {φ : FTy} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (r : Fin N) :
    Host.scatterAdd (cellsDims N R wf) x idx upd (ix1 r)
      = x (ix1 r) + ∑ e : Fin R, if (idx (ix2 e 0)).toInt = (r.val : Int) then upd (ix1 e) else 0 := by
  show Ideal.hostScatterAdd (cellsDims N R wf) x idx upd (ix1 r) = _
  unfold Ideal.hostScatterAdd
  congr 1
  rw [Finset.sum_filter, sum_ix1]
  refine Finset.sum_congr rfl fun e _ => ?_
  simp only [cells_resultIdx?]

/-! ## Pairs: `[N, M]` at `[R, 2]` by `[R]` -/

/-- The dimension numbers of a scatter of single elements into a matrix at (row, column) pairs. -/
abbrev pairsDims (N M R : Nat) (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

/-- Where update element `e` lands: row `idx[e, 0]`, column `idx[e, 1]`, both read signed; nowhere when either is
    outside the matrix. -/
theorem pairs_resultIdx? (wf : ScatterDims.WF ⟨2, ![N, M]⟩ ⟨2, ![R, 2]⟩ ⟨1, ![R]⟩ [] [0, 1] [0, 1] 1)
    (idx : IVec ⟨2, ![R, 2]⟩ w) (e : Fin R) (r : Fin N) (c : Fin M) :
    (pairsDims N M R wf).resultIdx? (ix1 e) idx = some (ix2 r c)
      ↔ (idx (ix2 e 0)).toInt = (r.val : Int) ∧ (idx (ix2 e 1)).toInt = (c.val : Int) := by
  have hs0 : (pairsDims N M R wf).start (ix1 e) idx 0 = (idx (ix2 e 0)).toInt := by
    unfold ScatterDims.start
    rw [dif_pos (show (0 : Fin 2) ∈ ([0, 1] : List (Fin 2)) by decide)]
    congr 2
    funext b; refine Fin.ext ?_
    match b with
    | ⟨0, _⟩ => rfl
    | ⟨1, _⟩ => rfl
  have hs1 : (pairsDims N M R wf).start (ix1 e) idx 1 = (idx (ix2 e 1)).toInt := by
    unfold ScatterDims.start
    rw [dif_pos (show (1 : Fin 2) ∈ ([0, 1] : List (Fin 2)) by decide)]
    congr 2
    funext b; refine Fin.ext ?_
    match b with
    | ⟨0, _⟩ => rfl
    | ⟨1, _⟩ => rfl
  have hk : (pairsDims N M R wf).sKept = ([] : List (Fin 2)) := rfl
  have hw0 : (pairsDims N M R wf).window (ix1 e) 0 = 0 := by
    unfold ScatterDims.window
    rw [dif_neg (hk ▸ List.not_mem_nil)]
  have hw1 : (pairsDims N M R wf).window (ix1 e) 1 = 0 := by
    unfold ScatterDims.window
    rw [dif_neg (hk ▸ List.not_mem_nil)]
  unfold ScatterDims.resultIdx?
  constructor
  · intro h
    split at h
    · rename_i hin
      have h' := Option.some.inj h
      have h0 := congrArg (fun i => ((i (0 : Fin 2) : Fin _) : ℕ)) h'
      have h1 := congrArg (fun i => ((i (1 : Fin 2) : Fin _) : ℕ)) h'
      simp only [hs0, hs1, hw0, hw1] at h0 h1
      have hin0 := hin 0
      have hin1 := hin 1
      rw [hs0, hw0] at hin0
      rw [hs1, hw1] at hin1
      have g0 : ((idx (ix2 e 0)).toInt + ((0 : ℕ) : Int)).toNat = r.val := h0
      have g1 : ((idx (ix2 e 1)).toInt + ((0 : ℕ) : Int)).toNat = c.val := h1
      constructor <;> omega
    · exact absurd h (by simp)
  · rintro ⟨hr, hc⟩
    have e0 : (pairsDims N M R wf).start (ix1 e) idx 0 + (pairsDims N M R wf).window (ix1 e) 0 = (r.val : Int) := by
      rw [hs0, hw0, hr]; omega
    have e1 : (pairsDims N M R wf).start (ix1 e) idx 1 + (pairsDims N M R wf).window (ix1 e) 1 = (c.val : Int) := by
      rw [hs1, hw1, hc]; omega
    have hin : ∀ a : Fin 2, 0 ≤ (pairsDims N M R wf).start (ix1 e) idx a + (pairsDims N M R wf).window (ix1 e) a
        ∧ (pairsDims N M R wf).start (ix1 e) idx a + (pairsDims N M R wf).window (ix1 e) a < (⟨2, ![N, M]⟩ : Shape).size a := by
      intro a
      match a with
      | ⟨0, _⟩ =>
        have h : 0 ≤ (pairsDims N M R wf).start (ix1 e) idx 0 + (pairsDims N M R wf).window (ix1 e) 0
            ∧ (pairsDims N M R wf).start (ix1 e) idx 0 + (pairsDims N M R wf).window (ix1 e) 0 < (N : Int) := by
          rw [e0]; have := r.isLt; constructor <;> omega
        exact h
      | ⟨1, _⟩ =>
        have h : 0 ≤ (pairsDims N M R wf).start (ix1 e) idx 1 + (pairsDims N M R wf).window (ix1 e) 1
            ∧ (pairsDims N M R wf).start (ix1 e) idx 1 + (pairsDims N M R wf).window (ix1 e) 1 < (M : Int) := by
          rw [e1]; have := c.isLt; constructor <;> omega
        exact h
    rw [dif_pos hin]
    congr 1
    funext a; refine Fin.ext ?_
    match a with
    | ⟨0, _⟩ =>
      show ((pairsDims N M R wf).start (ix1 e) idx 0 + (pairsDims N M R wf).window (ix1 e) 0).toNat = r.val
      rw [e0]; omega
    | ⟨1, _⟩ =>
      show ((pairsDims N M R wf).start (ix1 e) idx 1 + (pairsDims N M R wf).window (ix1 e) 1).toNat = c.val
      rw [e1]; omega

/-- THE PAIR SCATTER READ AT `(r, c)`: the operand's element plus the sum of the updates `e` whose index pair
    `(idx[e, 0], idx[e, 1])` (read signed) is `(r, c)`: the dense matrix of a list of weighted coordinate pairs, repeated
    pairs accumulated. -/
theorem scatterAdd_pairs_apply {φ : FTy} (wf : ScatterDims.WF ⟨2, ![N, M]⟩ ⟨2, ![R, 2]⟩ ⟨1, ![R]⟩ [] [0, 1] [0, 1] 1)
    (x : FVec Ideal ⟨2, ![N, M]⟩ φ) (idx : IVec ⟨2, ![R, 2]⟩ w) (upd : FVec Ideal ⟨1, ![R]⟩ φ) (r : Fin N) (c : Fin M) :
    Host.scatterAdd (pairsDims N M R wf) x idx upd (ix2 r c)
      = x (ix2 r c) + ∑ e : Fin R,
          if (idx (ix2 e 0)).toInt = (r.val : Int) ∧ (idx (ix2 e 1)).toInt = (c.val : Int) then upd (ix1 e) else 0 := by
  show Ideal.hostScatterAdd (pairsDims N M R wf) x idx upd (ix2 r c) = _
  unfold Ideal.hostScatterAdd
  congr 1
  rw [Finset.sum_filter, sum_ix1]
  refine Finset.sum_congr rfl fun e _ => ?_
  simp only [pairs_resultIdx?]

end Idealize.ShloMosaic.SegmentSum

end
-- ==== Proof.LibGatherRows.lean ====
/-
  `stablehlo.gather` of whole rows of a rank-2 table, read at an index.

  What `jnp.take(table, idx, axis=0)` of a table `[N, C]` at a vector of `R` row numbers lowers to: a gather
  with offset_dims `[1]`, collapsed_slice_dims `[0]`, start_index_map `[0]`, index_vector_dim 1 and slice sizes
  `[1, C]`, over the row numbers as a column `[R, 1]`. Result element `(r, c)` is the table at row
  `idx[r, 0]` — read as a signed integer and clamped into `[0, N − 1]`, as the gather clamps every start index —
  and column `c`: on the row axis the operand index is the clamped start (no batching, the axis is collapsed so
  it has no offset), on the column axis it is the result's own column coordinate (the axis is not in the start
  index map, so its start is 0, and it is the one offset axis).
-/
import Idealize.ShloMosaic.Lib.ValueIdx

noncomputable section

namespace Cert.LibGatherRows

open Idealize.ShloMosaic Idealize.ShloMosaic.ValueIdx

variable {α : Type}

/-- Those dimension numbers for a table `[N, C]`, row numbers `[R, 1]` and result `[R, C]`; their conditions
    `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, c)`: the table at the row `idx[r, 0]`, read signed and clamped into `[0, N − 1]`,
    and column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r c) idx 1 + (rowsDims N C R wf).batchCoord (ix2 r c) 1
        + (rowsDims N C R wf).offCoord (ix2 r c) 1 = c.val
    rw [GatherDims.batchCoord_eq_zero _ _ _ List.not_mem_nil]
    unfold GatherDims.start
    rw [dif_neg (show ¬ (1 : Fin 2) ∈ (rowsDims N C R wf).startIndexMap from
      fun h => absurd (congrArg Fin.val (List.mem_singleton.mp h)) Nat.one_ne_zero)]
    simp only [Nat.add_zero, Nat.zero_add]
    rfl

end Cert.LibGatherRows

end
-- ==== Proof.LibEdgeAggregate.lean ====
/-
  The host side of a mean aggregation over an edge list, read at an index on the extended reals.

  Edges are the rows of a column `D` of destination words and a column `S` of source words. An aggregation gathers
  row `S[e]` of a node table for every edge `e` (the source word read signed and clamped into the table) and adds it
  onto row `D[e]` of a zero table (the destination word read signed; an edge whose destination is outside the table
  is dropped). Read at `(i, c)` the result is zero plus the sum, over the edges directed into `i`, of the table at the
  edge's source row, column `c`. The in-degree is the same scatter of ones; its maximum with one is a positive real.
-/
import Idealize.ShloMosaic.PureOps.Ideal.Laws
import Idealize.ShloMosaic.Lib.IdealHost
import Idealize.ShloMosaic.Lib.ValueIdx
import Idealize.ShloMosaic.Lib.Pipeline.Value
import proofs.«104510_j48885317763286_1_alg».proof.Proof.LibSegmentSum
import proofs.«104510_j48885317763286_1_alg».proof.Proof.LibGatherRows
import proofs.«104510_j48885317763286_1_alg».proof.Proof.LibBroadcastInDim

noncomputable section

open scoped BigOperators

namespace Cert.Sage.Read

open Idealize.ShloMosaic Idealize.ShloMosaic.ValueIdx

variable {N E C w : ℕ}

/-- The node whose row edge `e` carries: its source word read signed and clamped into the table. -/
def srcRow (hN : 0 < N) (S : IVec ⟨2, ![E, 1]⟩ w) (e : Fin E) : Fin N :=
  ⟨min (S (ix2 e (0 : Fin 1))).toInt.toNat (N - 1), by omega⟩

/-- Edge `e` is directed into node `i`: its destination word, read signed, is `i`. -/
def into (D : IVec ⟨2, ![E, 1]⟩ w) (i : Fin N) (e : Fin E) : Prop := (D (ix2 e (0 : Fin 1))).toInt = (i.val : Int)

instance (D : IVec ⟨2, ![E, 1]⟩ w) (i : Fin N) : DecidablePred (into D i) := fun _ => inferInstanceAs (Decidable (_ = _))

/-- THE AGGREGATION READ AT `(i, c)`: zero plus the sum over the edges into `i` of the table at the edge's source row. -/
theorem aggregate_apply (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z x : FVec Ideal ⟨2, ![N, C]⟩ .f32) (hz : ∀ j, z j = 0) (D S : IVec ⟨2, ![E, 1]⟩ w) (i : Fin N) (c : Fin C) :
    Host.scatterAdd (SegmentSum.rowsDims N E C wfs) z D (Host.gather (Cert.LibGatherRows.rowsDims N C E wfg) x S) (ix2 i c)
      = (0 : EReal) + ∑ e : Fin E, if into D i e then x (ix2 (srcRow hN S e) c) else 0 := by
  rw [SegmentSum.scatterAdd_rows_apply, hz]
  congr 1
  refine Finset.sum_congr rfl fun e _ => ?_
  rw [Cert.LibGatherRows.gather_rows_apply hN]
  rfl

/-- A finite sum of ones and zeros is a natural number. -/
theorem sum_indicator_nat {ι : Type*} (s : Finset ι) (p : ι → Prop) [DecidablePred p] :
    ∃ n : ℕ, (∑ e ∈ s, if p e then (1 : EReal) else 0) = (n : EReal) := by
  classical
  induction s using Finset.induction_on with
  | empty => exact ⟨0, by simp⟩
  | insert a s ha ih =>
    obtain ⟨n, hn⟩ := ih
    rw [Finset.sum_insert ha, hn]
    by_cases hp : p a
    · exact ⟨1 + n, by rw [if_pos hp, Nat.cast_add, Nat.cast_one]⟩
    · exact ⟨n, by rw [if_neg hp, zero_add]⟩

/-- THE CLAMPED IN-DEGREE IS A POSITIVE REAL: ones scattered onto a zero vector at the destination words, then the
    maximum with one. -/
theorem degree_pos_real (wfc : ScatterDims.WF ⟨1, ![N]⟩ ⟨2, ![E, 1]⟩ ⟨1, ![E]⟩ [] [0] [0] 1)
    (z o : FVec Ideal ⟨1, ![N]⟩ .f32) (hz : ∀ j, z j = 0) (ho : ∀ j, o j = 1)
    (u : FVec Ideal ⟨1, ![E]⟩ .f32) (hu : ∀ j, u j = 1) (D : IVec ⟨2, ![E, 1]⟩ w) (i : Fin N) :
    ∃ r : ℝ, 0 < r ∧ maximumf (Host.scatterAdd (SegmentSum.cellsDims N E wfc) z D u) o (ix1 i) = (r : EReal) := by
  rw [maximumf_apply, SegmentSum.scatterAdd_cells_apply, hz, ho, zero_add]
  simp only [hu]
  obtain ⟨n, hn⟩ := sum_indicator_nat Finset.univ fun e : Fin E => (D (ix2 e 0)).toInt = (i.val : Int)
  rw [hn]
  refine ⟨max (n : ℝ) 1, lt_max_of_lt_right one_pos, ?_⟩
  rw [← EReal.coe_coe_eq_natCast, ← EReal.coe_one]
  exact (Monotone.map_max (f := ((↑) : ℝ → EReal)) fun a b h => EReal.coe_le_coe_iff.mpr h).symm

/-- A per-node vector spread along every lane of a table reads, at `(i, c)`, the vector at `i`. -/
theorem spread_apply {α : Type} (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (v : (⟨1, ![N]⟩ : Shape).Idx → α) (i : Fin N) (c : Fin C) :
    broadcastInDim ⟨2, ![N, C]⟩ (![0, 1] : Fin 2 → Fin 2) h2 (broadcastInDim ⟨2, ![N, 1]⟩ (![0] : Fin 1 → Fin 2) h1 v) (ix2 i c)
      = v (ix1 i) := by
  rw [Cert.Lib.BroadcastInDim.col_lanes_apply, Cert.Lib.BroadcastInDim.vec_col_apply]

end Cert.Sage.Read

end
-- ==== Proof.LibMeanSpellings.lean ====
/-
  A mean over incoming edges written as a product with the reciprocal degree is the mean written as a quotient, on the
  extended reals and for any numbers of nodes, edges and columns.

  The in-degree of a node — ones added onto a zero vector at the destination words of the edges —, clamped below at
  one, is a positive real `d`. On the extended reals the quotient of any `y` by a nonzero real `d` is the product
  `y · (1 / d)` (`mul_recip_eq_div`), `1 / d` itself being the quotient of one by `d`. Hence a table whose rows are scaled
  by the reciprocal clamped degree, the degree spread `[N] → [N, 1] → [N, C]`, is the table whose rows are divided by
  the clamped degree (`spread_recip_eq_div`) — whatever the table holds, infinite entries included. Also: the scalar
  constants `0x00000000` and `0x3F800000` spread over any shape read 0 and 1 (`zeros_apply`, `ones_apply`).
-/
import proofs.«104510_j48885317763286_1_alg».proof.Proof.LibEdgeAggregate
import Idealize.ShloMosaic.Lib.IdealHost

noncomputable section

namespace Cert.Lib.MeanSpellings

open Idealize.ShloMosaic Idealize.ShloMosaic.ValueIdx

/-- On the extended reals, for a positive real `d`: `y · (1 / d) = y / d`. -/
theorem mul_recip_eq_div (y : EReal) {d : ℝ} (hd : 0 < d) :
    y * Ideal.div 1 (d : EReal) = Ideal.div y (d : EReal) := by
  rw [Ideal.div_coe hd.ne', Ideal.div_coe hd.ne', one_mul]

/-- A table whose rows are scaled by the reciprocal clamped degree is the table whose rows are divided by the clamped
    degree, for any number of nodes, edges and columns. -/
theorem spread_recip_eq_div {N E C w : ℕ} (wfc : ScatterDims.WF ⟨1, ![N]⟩ ⟨2, ![E, 1]⟩ ⟨1, ![E]⟩ [] [0] [0] 1)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (z o : FVec Ideal ⟨1, ![N]⟩ .f32) (hz : ∀ j, z j = 0) (ho : ∀ j, o j = 1)
    (u : FVec Ideal ⟨1, ![E]⟩ .f32) (hu : ∀ j, u j = 1) (D : IVec ⟨2, ![E, 1]⟩ w)
    (t : FVec Ideal ⟨2, ![N, C]⟩ .f32) :
    mulf t (broadcastInDim ⟨2, ![N, C]⟩ (![0, 1] : Fin 2 → Fin 2) h2 (broadcastInDim ⟨2, ![N, 1]⟩ (![0] : Fin 1 → Fin 2) h1
        (Host.divf o (maximumf (Host.scatterAdd (SegmentSum.cellsDims N E wfc) z D u) o))))
      = Host.divf t (broadcastInDim ⟨2, ![N, C]⟩ (![0, 1] : Fin 2 → Fin 2) h2 (broadcastInDim ⟨2, ![N, 1]⟩ (![0] : Fin 1 → Fin 2) h1
        (maximumf (Host.scatterAdd (SegmentSum.cellsDims N E wfc) z D u) o))) := by
  funext j
  obtain ⟨i, c, rfl⟩ : ∃ (i : Fin N) (c : Fin C), j = ix2 i c := ⟨j 0, j 1, eq_ix2 j⟩
  obtain ⟨r, hr, e⟩ := Cert.Sage.Read.degree_pos_real wfc z o hz ho u hu D i
  rw [mulf_apply, hostDivf_apply, Cert.Sage.Read.spread_apply, Cert.Sage.Read.spread_apply, hostDivf_apply, e, ho]
  exact mul_recip_eq_div _ hr

/-- The zero constant spread over any shape reads zero. -/
theorem zeros_apply {S : Shape} (h : (⟨0, ![]⟩ : Shape).BroadcastsInDim S ![]) (j : S.Idx) :
    (broadcastInDim S ![] h (constant (F := Ideal) ⟨0, ![]⟩ .f32 0x00000000#32) : FVec Ideal S .f32) j = 0 := by
  rw [broadcastInDim_scalar_apply, constant_apply, Ideal.ofBits_zero_f32]

/-- The one constant spread over any shape reads one. -/
theorem ones_apply {S : Shape} (h : (⟨0, ![]⟩ : Shape).BroadcastsInDim S ![]) (j : S.Idx) :
    (broadcastInDim S ![] h (constant (F := Ideal) ⟨0, ![]⟩ .f32 0x3F800000#32) : FVec Ideal S .f32) j = 1 := by
  rw [broadcastInDim_scalar_apply, constant_apply, Ideal.ofBits_one_f32]

end Cert.Lib.MeanSpellings

end
-- ==== Proof.Mean.lean ====
/-
  The mean over incoming edges, written as a product with the reciprocal degree, is the mean written as a quotient:
  the two spellings of the network are one function.

  The clamped in-degree of a node is a positive real, and on the extended reals `y · (1 / d) = y / d` for a positive
  real `d` and every `y`. Nothing is asked of the table summed.
-/
import proofs.«104510_j48885317763286_1_alg».proof.Proof.Spec
import proofs.«104510_j48885317763286_1_alg».proof.Proof.LibMeanSpellings

noncomputable section

namespace Cert.Sage

open Idealize.ShloMosaic Idealize.ShloMosaic.ValueIdx Cert.ReferenceIdeal Cert.ReferenceIdeal.Facts₀ Cert.Lib.MeanSpellings

variable [Cert.ReferenceIdeal.Facts₀]

/-- The two spellings of the mean agree on every 256-column table. -/
theorem meanProd256_eq (t : Arr S50000x256) (d : Words S800000) :
    meanProd256 t (degree d) = meanQuot256 t (degree d) :=
  spread_recip_eq_div scatter_S50000_S800000x1_S800000_n_0_0_1.wf bcast_S50000_S50000x1_0 bcast_S50000x1_S50000x256_0_1
    _ _ (zeros_apply _) (ones_apply _) _ (ones_apply _) (scatterRows d) t

/-- The two spellings of the mean agree on every 128-column table. -/
theorem meanProd128_eq (t : Arr S50000x128) (d : Words S800000) :
    meanProd128 t (degree d) = meanQuot128 t (degree d) :=
  spread_recip_eq_div scatter_S50000_S800000x1_S800000_n_0_0_1.wf bcast_S50000_S50000x1_0 bcast_S50000x1_S50000x128_0_1
    _ _ (zeros_apply _) (ones_apply _) _ (ones_apply _) (scatterRows d) t

/-- Hence the network is one function in either spelling. -/
theorem networkProd_eq : networkProd = networkQuot := by
  funext x e s Wp bp Wl0 bl0 Wr0 Wl1 bl1 Wr1 W1 b1 W2 b2 a
  simp only [networkProd, networkQuot, meanProd256_eq, meanProd128_eq]

end Cert.Sage

end
-- ==== Proof.RefIsSpec.lean ====
/-
  The reference program's result is the network with its means written as quotients.

  The reference's run ends with its result at the composition of its host operations applied to the arguments. That
  composition is, operation for operation, the network of `Spec` in the quotient spelling: the same operations in the
  same order, with the shared subterms (the two rows of the edge array, the clamped degree, the first layer's output)
  named.
-/
import proofs.«104510_j48885317763286_1_alg».proof.Proof.Gen.ReferenceIdeal.Run
import proofs.«104510_j48885317763286_1_alg».proof.Proof.Spec

noncomputable section

namespace Cert.Sage

open Idealize.ShloMosaic Idealize.ShloMosaic.TcCoe Idealize.SL.Sem Cert.ReferenceIdeal

variable [Cert.ReferenceIdeal.Facts]

set_option maxRecDepth 16384 in
/-- The reference run's result term is the quotient-spelled network of the arguments. -/
theorem reference_eq (m : (ℓ : Loc nD τ sig) → Buf (Elt Ideal) ℓ) (c : Dev nD) :
    Cert.ReferenceIdeal.Value.res_main_v81 (F := Ideal) m c
      = networkQuot (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15)) := by
  unfold Cert.ReferenceIdeal.Value.res_main_v81
  rfl

end Cert.Sage

end
-- ==== Proof.lean ====
/-
  The certificate: a two-layer mean-aggregation network with a scoring head, as two grids of 25 row blocks among
  host operations, against the same network as host operations only.

  The two programs differ in one place: the mean over a node's incoming edges is the edge sum times the reciprocal of
  the clamped in-degree in the first, and the edge sum divided by the clamped in-degree in the second. The clamped
  in-degree is a positive real, so on the extended reals the two are one function of the edge sum (`Mean`). Every
  other operation is shared: the grids compute, block of rows by block of rows, the layers the host computes whole
  (`Block0`, `Block1`, `Final0`, `Final1`), a narrowing of a matrix product's operands being the identity on the
  extended reals. So the first program's result is the network in the product spelling (`Reads`), the second's the
  network in the quotient spelling (`RefIsSpec`), and those are equal (`networkProd_eq`). No finiteness of the inputs
  is used.
-/
import proofs.«104510_j48885317763286_1_alg».proof.Defs
import proofs.«104510_j48885317763286_1_alg».proof.Proof.Gen.Kernel
import proofs.«104510_j48885317763286_1_alg».proof.Proof.Gen.Kernel.Skeleton
import proofs.«104510_j48885317763286_1_alg».proof.Proof.Gen.Kernel.Launch
import proofs.«104510_j48885317763286_1_alg».proof.Proof.Gen.Kernel.Points
import proofs.«104510_j48885317763286_1_alg».proof.Proof.Gen.Kernel.Frame
import proofs.«104510_j48885317763286_1_alg».proof.Proof.Gen.KernelIdeal
import proofs.«104510_j48885317763286_1_alg».proof.Proof.Gen.KernelIdeal.Skeleton
import proofs.«104510_j48885317763286_1_alg».proof.Proof.Gen.KernelIdeal.Launch
import proofs.«104510_j48885317763286_1_alg».proof.Proof.Gen.KernelIdeal.Points
import proofs.«104510_j48885317763286_1_alg».proof.Proof.Gen.KernelIdeal.Frame
import proofs.«104510_j48885317763286_1_alg».proof.Proof.Gen.ReferenceIdeal
import proofs.«104510_j48885317763286_1_alg».proof.Proof.Gen.ReferenceIdeal.Run
import proofs.«104510_j48885317763286_1_alg».proof.Proof.Gen.Pre_finite_inputs
import proofs.«104510_j48885317763286_1_alg».proof.Proof.KernelRun
import proofs.«104510_j48885317763286_1_alg».proof.Proof.Reads
import proofs.«104510_j48885317763286_1_alg».proof.Proof.Mean
import proofs.«104510_j48885317763286_1_alg».proof.Proof.RefIsSpec
import Idealize.ShloMosaic.Adequacy
import Idealize.ShloMosaic.Init

noncomputable section

namespace Cert.Proof

open Idealize.ShloMosaic Idealize.SL.Sem Cert.Sage

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the network of the arguments: the first in the product spelling of the mean, the second in
    the quotient spelling, which are one function. -/
theorem algebraic : Cert.algebraic_KernelIdeal_ReferenceIdeal := by
  intro m ρ m' ρ' _ hagree
  refine ⟨fun c => networkProd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c => ⟨(h c).1.trans (kernel_value m ρ c), (h c).2⟩)
      (Cert.KernelIdeal.Whole.run_main m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [reference_eq, networkProd_eq, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
